-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x128 : Shape := ⟨4, ![16, 64, 64, 128]⟩
abbrev S_ : Shape := ⟨0, ![]⟩

class Facts : Prop where
  bcast_S_S16x64x64x128 : S_.BroadcastsInDim S16x64x64x128 (![] : Fin 0 → Fin S16x64x64x128.rank)
  reducesTo_S16x64x64x128_S_d0_1_2_3 : S16x64x64x128.ReducesTo [0, 1, 2, 3] S_
  h_S_ : 0 < S_.numel

variable [Facts]

def fn {F : FTy → Type} [FloatOps F] (main_arg0 : FVec F S16x64x64x128 .f32) (main_arg1 : IVec S16x64x64x128 32) : IVec S_ 1 :=
  let main_v0 : FVec F S16x64x64x128 .f32 := Host.absf main_arg0
  let main_cst : FVec F S_ .f32 := constant S_ .f32 0x7F800000#32
  let main_v1 : FVec F S16x64x64x128 .f32 := broadcastInDim S16x64x64x128 ![] bcast_S_S16x64x64x128 main_cst
  let main_v2 : IVec S16x64x64x128 1 := cmpf .olt main_v0 main_v1
  let main_c : IVec S_ 1 := constantI S_ 1 1#1
  let main_v3 : IVec S_ 1 := (fun x v => Host.reduce IntOp.andi x v reducesTo_S16x64x64x128_S_d0_1_2_3 h_S_) main_v2 main_c
  let main_c_0 : IVec S_ 32 := constantI S_ 32 0#32
  let main_v4 : IVec S16x64x64x128 32 := broadcastInDim S16x64x64x128 ![] bcast_S_S16x64x64x128 main_c_0
  let main_v5 : IVec S16x64x64x128 1 := cmpi .sge main_arg1 main_v4
  let main_c_1 : IVec S_ 1 := constantI S_ 1 1#1
  let main_v6 : IVec S_ 1 := (fun x v => Host.reduce IntOp.andi x v reducesTo_S16x64x64x128_S_d0_1_2_3 h_S_) main_v5 main_c_1
  let main_v7 : IVec S_ 1 := andi main_v3 main_v6
  let main_c_2 : IVec S_ 32 := constantI S_ 32 2097152#32
  let main_v8 : IVec S16x64x64x128 32 := broadcastInDim S16x64x64x128 ![] bcast_S_S16x64x64x128 main_c_2
  let main_v9 : IVec S16x64x64x128 1 := cmpi .slt main_arg1 main_v8
  let main_c_3 : IVec S_ 1 := constantI S_ 1 1#1
  let main_v10 : IVec S_ 1 := (fun x v => Host.reduce IntOp.andi x v reducesTo_S16x64x64x128_S_d0_1_2_3 h_S_) main_v9 main_c_3
  let main_v11 : IVec S_ 1 := andi main_v7 main_v10
  main_v11
-- ==== Kernel.lean ====
abbrev S16x64x64x128 : Shape := ⟨4, ![16, 64, 64, 128]⟩
abbrev S16x4096x128 : Shape := ⟨3, ![16, 4096, 128]⟩
abbrev S1x4096x128 : Shape := ⟨3, ![1, 4096, 128]⟩
abbrev S4096x128 : Shape := ⟨2, ![4096, 128]⟩
abbrev S8388608 : Shape := ⟨1, ![8388608]⟩
abbrev S_ : Shape := ⟨0, ![]⟩
abbrev S33554432 : Shape := ⟨1, ![33554432]⟩
abbrev S8388608x1 : Shape := ⟨2, ![8388608, 1]⟩
abbrev S16x128x128x128 : Shape := ⟨4, ![16, 128, 128, 128]⟩

abbrev nBuf : Space → Nat
  | .hbm => 11
  | .vmem => 4
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S16x4096x128, .i32⟩
  | .hbm, ⟨3, _⟩ => ⟨S16x4096x128, .i32⟩
  | .hbm, ⟨4, _⟩ => ⟨S8388608, .f32⟩
  | .hbm, ⟨5, _⟩ => ⟨S8388608, .i32⟩
  | .hbm, ⟨6, _⟩ => ⟨S_, .f32⟩
  | .hbm, ⟨7, _⟩ => ⟨S33554432, .f32⟩
  | .hbm, ⟨8, _⟩ => ⟨S8388608x1, .i32⟩
  | .hbm, ⟨9, _⟩ => ⟨S33554432, .f32⟩
  | .hbm, ⟨10, _⟩ => ⟨S16x128x128x128, .f32⟩
  | .local _ .vmem, ⟨0, _⟩ => ⟨S1x4096x128, .i32⟩
  | .local _ .vmem, ⟨1, _⟩ => ⟨S1x4096x128, .i32⟩
  | .local _ .vmem, ⟨2, _⟩ => ⟨S1x4096x128, .i32⟩
  | .local _ .vmem, ⟨3, _⟩ => ⟨S1x4096x128, .i32⟩
  | _, _ => ⟨S16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x64x128_S16x4096x128 : S16x64x64x128.ShapeCasts S16x4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  natLt_1_32 : 1 < 32
  iota_S4096x128_d1_w32 : S4096x128.Iotas .tc 32 [1]
  shapeCasts_S4096x128_S1x4096x128 : S4096x128.ShapeCasts S1x4096x128
  shapeCasts_S16x64x64x128_S8388608 : S16x64x64x128.ShapeCasts S8388608
  shapeCasts_S16x4096x128_S8388608 : S16x4096x128.ShapeCasts S8388608
  bcast_S_S33554432 : S_.BroadcastsInDim S33554432 (![] : Fin 0 → Fin S33554432.rank)
  bcast_S8388608_S8388608x1_0 : S8388608.BroadcastsInDim S8388608x1 (![0] : Fin 1 → Fin S8388608x1.rank)
  shapeCasts_S33554432_S16x128x128x128 : S33554432.ShapeCasts S16x128x128x128
  scatter_S33554432_S8388608x1_S8388608_n_0_0_1_wf : ScatterDims.WF S33554432 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x4096x128.size a
  hwx0_0 : ∀ i : grid0.Coords, EltTy.bits .i32 = 32 ∨ (Rect.block (s := S16x4096x128) S1x4096x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S16x4096x128.size a
  hwx0_1 : ∀ i : grid0.Coords, EltTy.bits .i32 = 32 ∨ (Rect.block (s := S16x4096x128) S1x4096x128.size (cc0_transform_1 i) (hinb0_1 i)).WholeWords (EltTy.packing .i32)

variable [Facts₀]

def scatter_S33554432_S8388608x1_S8388608_n_0_0_1 : ScatterDims S33554432 S8388608x1 S8388608 where
  updateWindowDims := []
  insertedWindowDims := [0]
  scatterDimsToOperandDims := [0]
  indexVectorDim := 1
  wf := scatter_S33554432_S8388608x1_S8388608_n_0_0_1_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x64x128 : Shape := ⟨4, ![16, 64, 64, 128]⟩
abbrev S_ : Shape := ⟨0, ![]⟩
abbrev S16 : Shape := ⟨1, ![16]⟩
abbrev S16x1x1x1 : Shape := ⟨4, ![16, 1, 1, 1]⟩
abbrev S128 : Shape := ⟨1, ![128]⟩
abbrev S1x1x1x128 : Shape := ⟨4, ![1, 1, 1, 128]⟩
abbrev S16x128x128x128 : Shape := ⟨4, ![16, 128, 128, 128]⟩
abbrev S16x64x64x128x1 : Shape := ⟨5, ![16, 64, 64, 128, 1]⟩
abbrev S16x64x64x128x4 : Shape := ⟨5, ![16, 64, 64, 128, 4]⟩

abbrev nBuf : Space → Nat
  | .hbm => 102
  | .vmem => 0
  | .smem => 0
  | _ => 0

abbrev bufTy : (tb : Table) → Fin (tcTables nBuf tb) → BufTy
  | .hbm, ⟨0, _⟩ => ⟨S16x64x64x128, .f32⟩
  | .hbm, ⟨1, _⟩ => ⟨S16x64x64x128, .i32⟩
  | .hbm, ⟨2, _⟩ => ⟨S_, .i32⟩
  | .hbm, ⟨3, _⟩ => ⟨S_, .i32⟩
  | .hbm, ⟨4, _⟩ => ⟨S16x64x64x128, .i32⟩
  | .hbm, ⟨5, _⟩ => ⟨S16x64x64x128, .i32⟩
  | .hbm, ⟨6, _⟩ => ⟨S16x64x64x128, .i32⟩
  | .hbm, ⟨7, _⟩ => ⟨S_, .i32⟩
  | .hbm, ⟨8, _⟩ => ⟨S16x64x64x128, .i32⟩
  | .hbm, ⟨9, _⟩ => ⟨S16x64x64x128, .i1⟩
  | .hbm, ⟨10, _⟩ => ⟨S16x64x64x128, .i32⟩
  | .hbm, ⟨11, _⟩ => ⟨S16x64x64x128, .i32⟩
  | .hbm, ⟨12, _⟩ => ⟨S_, .i32⟩
  | .hbm, ⟨13, _⟩ => ⟨S16x64x64x128, .i32⟩
  | .hbm, ⟨14, _⟩ => ⟨S16x64x64x128, .i1⟩
  | .hbm, ⟨15, _⟩ => ⟨S16x64x64x128, .i1⟩
  | .hbm, ⟨16, _⟩ => ⟨S_, .i32⟩
  | .hbm, ⟨17, _⟩ => ⟨S16x64x64x128, .i32⟩
  | .hbm, ⟨18, _⟩ => ⟨S16x64x64x128, .i32⟩
  | .hbm, ⟨19, _⟩ => ⟨S16x64x64x128, .i32⟩
  | .hbm, ⟨20, _⟩ => ⟨S_, .i32⟩
  | .hbm, ⟨21, _⟩ => ⟨S_, .i32⟩
  | .hbm, ⟨22, _⟩ => ⟨S16x64x64x128, .i32⟩
  | .hbm, ⟨23, _⟩ => ⟨S16x64x64x128, .i32⟩
  | .hbm, ⟨24, _⟩ => ⟨S16x64x64x128, .i32⟩
  | .hbm, ⟨25, _⟩ => ⟨S_, .i32⟩
  | .hbm, ⟨26, _⟩ => ⟨S16x64x64x128, .i32⟩
  | .hbm, ⟨27, _⟩ => ⟨S16x64x64x128, .i1⟩
  | .hbm, ⟨28, _⟩ => ⟨S16x64x64x128, .i32⟩
  | .hbm, ⟨29, _⟩ => ⟨S16x64x64x128, .i32⟩
  | .hbm, ⟨30, _⟩ => ⟨S_, .i32⟩
  | .hbm, ⟨31, _⟩ => ⟨S16x64x64x128, .i32⟩
  | .hbm, ⟨32, _⟩ => ⟨S16x64x64x128, .i1⟩
  | .hbm, ⟨33, _⟩ => ⟨S16x64x64x128, .i1⟩
  | .hbm, ⟨34, _⟩ => ⟨S_, .i32⟩
  | .hbm, ⟨35, _⟩ => ⟨S16x64x64x128, .i32⟩
  | .hbm, ⟨36, _⟩ => ⟨S16x64x64x128, .i32⟩
  | .hbm, ⟨37, _⟩ => ⟨S16x64x64x128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S16x64x64x128, .i32⟩
  | .hbm, ⟨45, _⟩ => ⟨S16x64x64x128, .i32⟩
  | .hbm, ⟨46, _⟩ => ⟨S_, .i32⟩
  | .hbm, ⟨47, _⟩ => ⟨S16x64x64x128, .i32⟩
  | .hbm, ⟨48, _⟩ => ⟨S16x64x64x128, .i1⟩
  | .hbm, ⟨49, _⟩ => ⟨S_, .i32⟩
  | .hbm, ⟨50, _⟩ => ⟨S16x64x64x128, .i32⟩
  | .hbm, ⟨51, _⟩ => ⟨S16x64x64x128, .i1⟩
  | .hbm, ⟨52, _⟩ => ⟨S_, .i32⟩
  | .hbm, ⟨53, _⟩ => ⟨S_, .i1⟩
  | .hbm, ⟨54, _⟩ => ⟨S16x64x64x128, .i1⟩
  | .hbm, ⟨55, _⟩ => ⟨S16x64x64x128, .i1⟩
  | .hbm, ⟨56, _⟩ => ⟨S16x64x64x128, .i1⟩
  | .hbm, ⟨57, _⟩ => ⟨S16x64x64x128, .i32⟩
  | .hbm, ⟨58, _⟩ => ⟨S16x64x64x128, .i32⟩
  | .hbm, ⟨59, _⟩ => ⟨S16x64x64x128, .i32⟩
  | .hbm, ⟨60, _⟩ => ⟨S16, .i32⟩
  | .hbm, ⟨61, _⟩ => ⟨S16x1x1x1, .i32⟩
  | .hbm, ⟨62, _⟩ => ⟨S128, .i32⟩
  | .hbm, ⟨63, _⟩ => ⟨S1x1x1x128, .i32⟩
  | .hbm, ⟨64, _⟩ => ⟨S16x64x64x128, .i32⟩
  | .hbm, ⟨65, _⟩ => ⟨S16x64x64x128, .i32⟩
  | .hbm, ⟨66, _⟩ => ⟨S_, .f32⟩
  | .hbm, ⟨67, _⟩ => ⟨S16x128x128x128, .f32⟩
  | .hbm, ⟨68, _⟩ => ⟨S_, .i32⟩
  | .hbm, ⟨69, _⟩ => ⟨S16x64x64x128, .i32⟩
  | .hbm, ⟨70, _⟩ => ⟨S16x64x64x128, .i1⟩
  | .hbm, ⟨71, _⟩ => ⟨S_, .i32⟩
  | .hbm, ⟨72, _⟩ => ⟨S16x64x64x128, .i32⟩
  | .hbm, ⟨73, _⟩ => ⟨S16x64x64x128, .i32⟩
  | .hbm, ⟨74, _⟩ => ⟨S16x64x64x128, .i32⟩
  | .hbm, ⟨75, _⟩ => ⟨S_, .i32⟩
  | .hbm, ⟨76, _⟩ => ⟨S16x64x64x128, .i32⟩
  | .hbm, ⟨77, _⟩ => ⟨S16x64x64x128, .i1⟩
  | .hbm, ⟨78, _⟩ => ⟨S_, .i32⟩
  | .hbm, ⟨79, _⟩ => ⟨S16x64x64x128, .i32⟩
  | .hbm, ⟨80, _⟩ => ⟨S16x64x64x128, .i32⟩
  | .hbm, ⟨81, _⟩ => ⟨S16x64x64x128, .i32⟩
  | .hbm, ⟨82, _⟩ => ⟨S_, .i32⟩
  | .hbm, ⟨83, _⟩ => ⟨S16x64x64x128, .i32⟩
  | .hbm, ⟨84, _⟩ => ⟨S16x64x64x128, .i1⟩
  | .hbm, ⟨85, _⟩ => ⟨S_, .i32⟩
  | .hbm, ⟨86, _⟩ => ⟨S16x64x64x128, .i32⟩
  | .hbm, ⟨87, _⟩ => ⟨S16x64x64x128, .i32⟩
  | .hbm, ⟨88, _⟩ => ⟨S16x64x64x128, .i32⟩
  | .hbm, ⟨89, _⟩ => ⟨S_, .i32⟩
  | .hbm, ⟨90, _⟩ => ⟨S16x64x64x128, .i32⟩
  | .hbm, ⟨91, _⟩ => ⟨S16x64x64x128, .i1⟩
  | .hbm, ⟨92, _⟩ => ⟨S_, .i32⟩
  | .hbm, ⟨93, _⟩ => ⟨S16x64x64x128, .i32⟩
  | .hbm, ⟨94, _⟩ => ⟨S16x64x64x128, .i32⟩
  | .hbm, ⟨95, _⟩ => ⟨S16x64x64x128, .i32⟩
  | .hbm, ⟨96, _⟩ => ⟨S16x64x64x128x1, .i32⟩
  | .hbm, ⟨97, _⟩ => ⟨S16x64x64x128x1, .i32⟩
  | .hbm, ⟨98, _⟩ => ⟨S16x64x64x128x1, .i32⟩
  | .hbm, ⟨99, _⟩ => ⟨S16x64x64x128x1, .i32⟩
  | .hbm, ⟨100, _⟩ => ⟨S16x64x64x128x4, .i32⟩
  | .hbm, ⟨101, _⟩ => ⟨S16x128x128x128, .f32⟩
  | _, _ => ⟨S16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_c_2 : Ref sig .tc := ⟨.hbm, 68, rfl⟩
abbrev main_v10 : Ref sig .tc := ⟨.hbm, 69, rfl⟩
abbrev main_v11 : Ref sig .tc := ⟨.hbm, 70, rfl⟩
abbrev main_c_3 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_c_4 : Ref sig .tc := ⟨.hbm, 75, rfl⟩
abbrev main_v15 : Ref sig .tc := ⟨.hbm, 76, rfl⟩
abbrev main_v16 : Ref sig .tc := ⟨.hbm, 77, rfl⟩
abbrev main_c_5 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_6 : Ref sig .tc := ⟨.hbm, 82, rfl⟩
abbrev main_v20 : Ref sig .tc := ⟨.hbm, 83, rfl⟩
abbrev main_v21 : Ref sig .tc := ⟨.hbm, 84, rfl⟩
abbrev main_c_7 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_c_8 : Ref sig .tc := ⟨.hbm, 89, rfl⟩
abbrev main_v25 : Ref sig .tc := ⟨.hbm, 90, rfl⟩
abbrev main_v26 : Ref sig .tc := ⟨.hbm, 91, rfl⟩
abbrev main_c_9 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩

abbrev nD : Nat := 1
abbrev τ : Topo := Topo.v7x

variable {F : FTy → Type} [FloatOps F]

class Facts₀ : Prop where
  bcast_S_S16x64x64x128 : S_.BroadcastsInDim S16x64x64x128 (![] : Fin 0 → Fin S16x64x64x128.rank)
  bcast_S16_S16x1x1x1_0 : S16.BroadcastsInDim S16x1x1x1 (![0] : Fin 1 → Fin S16x1x1x1.rank)
  bcast_S128_S1x1x1x128_3 : S128.BroadcastsInDim S1x1x1x128 (![3] : Fin 1 → Fin S1x1x1x128.rank)
  bcast_S16x1x1x1_S16x64x64x128_0_1_2_3 : S16x1x1x1.BroadcastsInDim S16x64x64x128 (![0, 1, 2, 3] : Fin 4 → Fin S16x64x64x128.rank)
  bcast_S1x1x1x128_S16x64x64x128_0_1_2_3 : S1x1x1x128.BroadcastsInDim S16x64x64x128 (![0, 1, 2, 3] : Fin 4 → Fin S16x64x64x128.rank)
  bcast_S_S16x128x128x128 : S_.BroadcastsInDim S16x128x128x128 (![] : Fin 0 → Fin S16x128x128x128.rank)
  bcast_S16x64x64x128_S16x64x64x128x1_0_1_2_3 : S16x64x64x128.BroadcastsInDim S16x64x64x128x1 (![0, 1, 2, 3] : Fin 4 → Fin S16x64x64x128x1.rank)
  concatenates_S16x64x64x128x1_S16x64x64x128x1_S16x64x64x128x1_S16x64x64x128x1_S16x64x64x128x4_d4 : Shape.Concatenates [S16x64x64x128x1, S16x64x64x128x1, S16x64x64x128x1, S16x64x64x128x1] S16x64x64x128x4 4
  scatter_S16x128x128x128_S16x64x64x128x4_S16x64x64x128_n_0123_0123_4_wf : ScatterDims.WF S16x128x128x128 S16x64x64x128x4 S16x64x64x128 [] [0, 1, 2, 3] [0, 1, 2, 3] 4

variable [Facts₀]

def scatter_S16x128x128x128_S16x64x64x128x4_S16x64x64x128_n_0123_0123_4 : ScatterDims S16x128x128x128 S16x64x64x128x4 S16x64x64x128 where
  updateWindowDims := []
  insertedWindowDims := [0, 1, 2, 3]
  scatterDimsToOperandDims := [0, 1, 2, 3]
  indexVectorDim := 4
  wf := scatter_S16x128x128x128_S16x64x64x128x4_S16x64x64x128_n_0123_0123_4_wf

class Facts : Prop extends Facts₀ where

variable [Facts]
-- ==== Proof.Spec.lean ====
/-
  What the two programs compute, as pure functions of the argument arrays.

  Max-unpooling: every source element (b, h, w, c) of `updates` is added into the output at batch b, channel c and
  the position (y, x) its `mask` entry m names, m being the row-major flat index of (y, x, c') in one batch's
  [128, 128, 128] output plane: y = m / 16384, x = (m / 128) mod 128.

  * The kernel side: a per-element word `kflat b m c = b · 2097152 + ⌊m / 128⌋ · 128 + c` (the flat index into the
    whole output read as one vector of 33554432 elements), then ONE accumulating scatter along that flat axis, then the
    reshape to [16, 128, 128, 128].
  * The reference side: the four index components (b, y, x, c), each passed through numpy's negative-index
    normalisation, stacked on a last axis of four, then ONE accumulating scatter into the four-dimensional output.

  Both are stated here with the operations the printed programs use, so that each program's run ends at one of these
  terms; that the two terms are equal (for masks in [0, 2097152)) is proved in the modules that import this one.
-/
import proofs.«125867_j85839216377924_1_alg».proof.KernelIdeal
import proofs.«125867_j85839216377924_1_alg».proof.ReferenceIdeal
import Idealize.ShloMosaic.PureOps.Ideal

noncomputable section

namespace Cert.Unpool

open Idealize.ShloMosaic

/-! ## The kernel side -/

/-- The kernel's floor division of one word by 128: the signed quotient rounded toward zero, less one where the signs
    of dividend and divisor differ and the remainder is not zero. -/
def kq (x : BitVec 32) : BitVec 32 :=
  let v3 := IntOp.divsi .vector x 128#32
  let v6 : BitVec 32 := (IntOp.cmpi .sgt x 0#32).setWidth 32
  let v9 : BitVec 32 := (IntOp.cmpi .slt x 0#32).setWidth 32
  let v10 := IntOp.subi v6 v9
  let v15 : BitVec 32 := Scalar.subi (Scalar.extui (Scalar.cmpi .sgt 128#32 0#32)) (Scalar.extui (Scalar.cmpi .slt 128#32 0#32))
  let v17 := IntOp.cmpi .ne v10 v15
  let v19 := IntOp.remsi .vector x 128#32
  let v21 := IntOp.cmpi .ne v19 0#32
  let v22 := IntOp.andi v17 v21
  let v24 := IntOp.subi v3 1#32
  Scalar.select v22 v24 v3

/-- The kernel's flat scatter index of the source element with mask word `x` in batch `b` at channel `c`:
    `b · 2097152 + ⌊x / 128⌋ · 128 + c`, in 32-bit words. -/
def kflat (b : Nat) (x : BitVec 32) (c : Nat) : BitVec 32 :=
  IntOp.addi (IntOp.addi (Scalar.muli (BitVec.ofNat 32 b) 2097152#32) (IntOp.muli (kq x) 128#32)) (BitVec.ofNat 32 c)

/-- The index array the pallas_call writes, as one function of the reshaped mask: element (b, r, c) is
    `kflat b (mask (b, r, c)) c`. -/
def idxArr (A : IVec Cert.KernelIdeal.S16x4096x128 32) : IVec Cert.KernelIdeal.S16x4096x128 32 :=
  fun i => kflat (i 0).val (A i) (i 2).val

section Kernel
open Cert.KernelIdeal Cert.KernelIdeal.Facts₀
variable [Cert.KernelIdeal.Facts] {F : FTy → Type} [FloatOps F]

/-- The host operations after the pallas_call, applied to the index array `I` it wrote and to `updates`. -/
def kerTail (upd : FVec F Cert.KernelIdeal.S16x64x64x128 .f32) (I : IVec Cert.KernelIdeal.S16x4096x128 32) :
    FVec F Cert.KernelIdeal.S16x128x128x128 .f32 :=
  shapeCast Cert.KernelIdeal.S16x128x128x128
    (Host.scatterAdd scatter_S33554432_S8388608x1_S8388608_n_0_0_1
      (broadcastInDim Cert.KernelIdeal.S33554432 ![] bcast_S_S33554432 (constant (F := F) Cert.KernelIdeal.S_ .f32 0x00000000#32))
      (broadcastInDim Cert.KernelIdeal.S8388608x1 ![0] bcast_S8388608_S8388608x1_0
        (shapeCast Cert.KernelIdeal.S8388608 I shapeCasts_S16x4096x128_S8388608))
      (shapeCast Cert.KernelIdeal.S8388608 upd shapeCasts_S16x64x64x128_S8388608))
    shapeCasts_S33554432_S16x128x128x128

/-- The kernel program's result as a function of its two arguments. -/
def kerOut (upd : FVec F Cert.KernelIdeal.S16x64x64x128 .f32) (mk : IVec Cert.KernelIdeal.S16x64x64x128 32) :
    FVec F Cert.KernelIdeal.S16x128x128x128 .f32 :=
  kerTail upd (idxArr (shapeCast Cert.KernelIdeal.S16x4096x128 mk shapeCasts_S16x64x64x128_S16x4096x128))

end Kernel

/-! ## The reference side -/

section Reference
open Cert.ReferenceIdeal Cert.ReferenceIdeal.Facts₀
variable [Cert.ReferenceIdeal.Facts] {F : FTy → Type} [FloatOps F]

local notation "S4" => Cert.ReferenceIdeal.S16x64x64x128
local notation "S0" => Cert.ReferenceIdeal.S_

/-- jnp's floor division of an array by a scalar, operation by operation. -/
def floorDivide (x : IVec S4 32) (d : IVec S0 32) : IVec S4 32 :=
  let v0 : IVec S0 32 := id d
  let v1 : IVec S4 32 := broadcastInDim S4 ![] bcast_S_S16x64x64x128 v0
  let v2 : IVec S4 32 := Host.divsi x v1
  let v3 : IVec S4 32 := signi x
  let v4 : IVec S0 32 := signi v0
  let v5 : IVec S4 32 := broadcastInDim S4 ![] bcast_S_S16x64x64x128 v4
  let v6 : IVec S4 1 := cmpi .ne v3 v5
  let v7 : IVec S4 32 := broadcastInDim S4 ![] bcast_S_S16x64x64x128 v0
  let v8 : IVec S4 32 := Host.remsi x v7
  let c : IVec S0 32 := constantI S0 32 0#32
  let v9 : IVec S4 32 := broadcastInDim S4 ![] bcast_S_S16x64x64x128 c
  let v10 : IVec S4 1 := cmpi .ne v8 v9
  let v11 : IVec S4 1 := andi v6 v10
  let c_0 : IVec S0 32 := constantI S0 32 1#32
  let v12 : IVec S4 32 := broadcastInDim S4 ![] bcast_S_S16x64x64x128 c_0
  let v13 : IVec S4 32 := subi v2 v12
  select v11 v13 v2

/-- jnp's remainder (the divisor's sign) of an array by a scalar, operation by operation. -/
def remainderJ (x : IVec S4 32) (d : IVec S0 32) : IVec S4 32 :=
  let v0 : IVec S0 32 := id d
  let c : IVec S0 32 := constantI S0 32 0#32
  let v1 : IVec S0 1 := cmpi .eq v0 c
  let c_0 : IVec S0 32 := constantI S0 32 1#32
  let v2 : IVec S0 32 := select v1 c_0 v0
  let v3 : IVec S4 32 := broadcastInDim S4 ![] bcast_S_S16x64x64x128 v2
  let v4 : IVec S4 32 := Host.remsi x v3
  let c_1 : IVec S0 32 := constantI S0 32 0#32
  let v5 : IVec S4 32 := broadcastInDim S4 ![] bcast_S_S16x64x64x128 c_1
  let v6 : IVec S4 1 := cmpi .ne v4 v5
  let c_2 : IVec S0 32 := constantI S0 32 0#32
  let v7 : IVec S4 32 := broadcastInDim S4 ![] bcast_S_S16x64x64x128 c_2
  let v8 : IVec S4 1 := cmpi .slt v4 v7
  let c_3 : IVec S0 32 := constantI S0 32 0#32
  let v9 : IVec S0 1 := cmpi .slt v2 c_3
  let v10 : IVec S4 1 := broadcastInDim S4 ![] bcast_S_S16x64x64x128 v9
  let v11 : IVec S4 1 := cmpi .ne v8 v10
  let v12 : IVec S4 1 := andi v11 v6
  let v13 : IVec S4 32 := broadcastInDim S4 ![] bcast_S_S16x64x64x128 v2
  let v14 : IVec S4 32 := addi v4 v13
  select v12 v14 v4

/-- numpy's normalisation of a possibly negative index against an axis of extent `n`: `n` is added where the index
    is negative. -/
def normIdx (x : IVec S4 32) (n : BitVec 32) : IVec S4 32 :=
  let z : IVec S4 32 := broadcastInDim S4 ![] bcast_S_S16x64x64x128 (constantI S0 32 0#32)
  let lt : IVec S4 1 := cmpi .slt x z
  let nn : IVec S4 32 := broadcastInDim S4 ![] bcast_S_S16x64x64x128 (constantI S0 32 n)
  let s : IVec S4 32 := addi x nn
  select lt s x

/-- The four index components of every source element, stacked on a last axis. -/
def refIdx (mk : IVec S4 32) : IVec Cert.ReferenceIdeal.S16x64x64x128x4 32 :=
  let v0 : IVec S4 32 := floorDivide mk (constantI S0 32 16384#32)
  let v1 : IVec S4 32 := floorDivide mk (constantI S0 32 128#32)
  let v2 : IVec S4 32 := remainderJ v1 (constantI S0 32 128#32)
  let v3 : IVec Cert.ReferenceIdeal.S16 32 := iotaInDim Cert.ReferenceIdeal.S16 32 0
  let v4 : IVec Cert.ReferenceIdeal.S16x1x1x1 32 := broadcastInDim Cert.ReferenceIdeal.S16x1x1x1 ![0] bcast_S16_S16x1x1x1_0 v3
  let v5 : IVec Cert.ReferenceIdeal.S128 32 := iotaInDim Cert.ReferenceIdeal.S128 32 0
  let v6 : IVec Cert.ReferenceIdeal.S1x1x1x128 32 := broadcastInDim Cert.ReferenceIdeal.S1x1x1x128 ![3] bcast_S128_S1x1x1x128_3 v5
  let v7 : IVec S4 32 := broadcastInDim S4 ![0, 1, 2, 3] bcast_S16x1x1x1_S16x64x64x128_0_1_2_3 v4
  let v8 : IVec S4 32 := broadcastInDim S4 ![0, 1, 2, 3] bcast_S1x1x1x128_S16x64x64x128_0_1_2_3 v6
  let v14 : IVec S4 32 := normIdx v7 16#32
  let v19 : IVec S4 32 := normIdx v0 128#32
  let v24 : IVec S4 32 := normIdx v2 128#32
  let v29 : IVec S4 32 := normIdx v8 128#32
  let v30 := broadcastInDim Cert.ReferenceIdeal.S16x64x64x128x1 ![0, 1, 2, 3] bcast_S16x64x64x128_S16x64x64x128x1_0_1_2_3 v14
  let v31 := broadcastInDim Cert.ReferenceIdeal.S16x64x64x128x1 ![0, 1, 2, 3] bcast_S16x64x64x128_S16x64x64x128x1_0_1_2_3 v19
  let v32 := broadcastInDim Cert.ReferenceIdeal.S16x64x64x128x1 ![0, 1, 2, 3] bcast_S16x64x64x128_S16x64x64x128x1_0_1_2_3 v24
  let v33 := broadcastInDim Cert.ReferenceIdeal.S16x64x64x128x1 ![0, 1, 2, 3] bcast_S16x64x64x128_S16x64x64x128x1_0_1_2_3 v29
  concatenate Cert.ReferenceIdeal.S16x64x64x128x4 4
    [⟨Cert.ReferenceIdeal.S16x64x64x128x1, v30⟩, ⟨Cert.ReferenceIdeal.S16x64x64x128x1, v31⟩,
     ⟨Cert.ReferenceIdeal.S16x64x64x128x1, v32⟩, ⟨Cert.ReferenceIdeal.S16x64x64x128x1, v33⟩]
    concatenates_S16x64x64x128x1_S16x64x64x128x1_S16x64x64x128x1_S16x64x64x128x1_S16x64x64x128x4_d4

/-- The reference program's result as a function of its two arguments. -/
def refOut (upd : FVec F S4 .f32) (mk : IVec S4 32) : FVec F Cert.ReferenceIdeal.S16x128x128x128 .f32 :=
  Host.scatterAdd scatter_S16x128x128x128_S16x64x64x128x4_S16x64x64x128_n_0123_0123_4
    (broadcastInDim Cert.ReferenceIdeal.S16x128x128x128 ![] bcast_S_S16x128x128x128 (constant (F := F) S0 .f32 0x00000000#32))
    (refIdx mk) upd

end Reference

end Cert.Unpool

end
-- ==== Proof.KernelValuePay.lean ====
/-
  The index kernel's stored block, read at one index.

  The body of the pallas_call loads the mask block [1, 4096, 128] of batch b, drops the leading unit axis, computes per
  element the floor quotient by 128 (the truncated signed quotient, corrected by one where the signs differ and the
  remainder is not zero), multiplies it back by 128, adds b · 2097152 and the lane number (an iota along axis 1 of
  [4096, 128]), and stores the result with the unit axis put back. Every one of these operations is pointwise except the two
  shape casts and the iota, so at the index (0, r, l) the stored word is the scalar chain `Cert.Unpool.kflat b x l` of the
  loaded word x at the same index.
-/
import proofs.«125867_j85839216377924_1_alg».proof.Proof.Spec
import proofs.«125867_j85839216377924_1_alg».proof.Proof.Gen.KernelIdeal.Skeleton
import Idealize.ShloMosaic.Lib.ValueLayout

noncomputable section

namespace Cert.KernelIdeal.HandValue

open Idealize.ShloMosaic Idealize.SL.Sem Cert.KernelIdeal Idealize.ShloMosaic.ValueIdx

variable {F : FTy → Type} [FloatOps F]

/-- The payload at explicit coordinates (u, r, l) of the block [1, 4096, 128]. -/
theorem pay_ix3 (g : grid0.Coords) (v0 : Vec F S1x4096x128 .i32) (u : Fin 1) (r : Fin 4096) (l : Fin 128) :
    Cert.KernelIdeal.Gen.k0_pay1 g v0 (ix3 u r l) = Cert.Unpool.kflat (g 0).val (v0 (ix3 u r l)) l.val := by
  obtain rfl : u = 0 := Subsingleton.elim _ _
  unfold Gen.k0_pay1
  refine (shapeCast_ab_1ab_apply _ _ 0 r l).trans ?_
  unfold Unpool.kflat
  show IntOp.addi (IntOp.addi (Scalar.muli (BitVec.ofNat 32 (g 0).val) 2097152#32)
        (IntOp.muli (Unpool.kq (shapeCast S4096x128 v0 Gen.shapeCasts_S1x4096x128_S4096x128 (ix2 r l))) 128#32))
      (iota Kind.tc S4096x128 32 [1] Gen.iota_S4096x128_d1_w32 (ix2 r l)) = _
  rw [shapeCast_1ab_ab_apply v0 _ r l, iota_single_apply]

/-- The payload at an index: every stored word is `kflat` of the grid coordinate, the loaded word and the lane. -/
theorem pay_apply (g : grid0.Coords) (v0 : Vec F S1x4096x128 .i32) (y : S1x4096x128.Idx) :
    Cert.KernelIdeal.Gen.k0_pay1 g v0 y = Cert.Unpool.kflat (g 0).val (v0 y) (y 2).val := by
  rw [eq_ix3 y]
  exact pay_ix3 g v0 (y 0) (y 1) (y 2)

end Cert.KernelIdeal.HandValue

end
-- ==== Proof.KernelValueBlocks.lean ====
/-
  From the sixteen stored blocks to the index array.

  The pallas_call runs on a grid of sixteen points, one per batch b. At point b it fetches block (b, 0, 0) of the reshaped
  mask [16, 4096, 128] (a whole batch) and writes back block (b, 0, 0) of the index array: the same rectangle of both
  arrays. By the payload lemma every stored word is `kflat` of the batch, the mask word and the lane, so what point b writes
  back is block b of `Cert.Unpool.idxArr` of the reshaped mask; the sixteen blocks tile the array, hence the array ends
  holding `idxArr` of the reshaped mask everywhere. The reshaped mask itself is what the one host operation before the
  region (a reshape of the second argument) leaves in window 0's array.
-/
import proofs.«125867_j85839216377924_1_alg».proof.Proof.KernelValuePay
import proofs.«125867_j85839216377924_1_alg».proof.Proof.KernelIdealFrameP
import Idealize.ShloMosaic.Lib.Pipeline.Value
import Idealize.ShloMosaic.Lib.Tactic

-- membership in a rectangle of these extents: the elaborator's structural look recurses once per coordinate of the long axes
set_option maxRecDepth 16384

noncomputable section

namespace Cert.KernelIdeal.HandValue

open Idealize.ShloMosaic Idealize.ShloMosaic.TcCoe Idealize.SL.Sem Cert.KernelIdeal Idealize.ShloMosaic.ValueIdx
open Idealize.ShloMosaic.Pipeline (Dat)
open Cert.KernelIdeal.Gen Cert.KernelIdeal.GenP

variable {F : FTy → Type} [FloatOps F]

variable (m : (ℓ : Loc nD τ sig) → Buf (Elt F) ℓ) (ρ : Dev nD → PrngReg)

/-- The body's one access starts at the origin of its block. -/
theorem hz : (![0, 0, 0] : Fin 3 → Nat) = fun _ => 0 := funext fun a => by fin_cases a <;> rfl

/-- The reshaped mask is what the region finds in window 0's array. -/
theorem V_main_v0 (c : Dev nD) :
    (V m c main_v0 : IVec S16x4096x128 32)
      = shapeCast S16x4096x128 (m ((c.tc : Thread nD τ).loc main_arg1)) Gen.shapeCasts_S16x64x64x128_S16x4096x128 := by
  show StableHlo.after hostOps0 (fun b => m (c, b)) (Proc.devRef .tc main_v0) = _
  after_results
  rfl

/-- The printed index maps, decided over the grid: both windows' block index at a point is (the point's grid coordinate, 0, 0). -/
theorem idx_facts : ∀ t : Fin cfg0.N, win0_1.index t (0 : Fin 3) = (grid0.coords t 0).val
    ∧ win0_1.index t (1 : Fin 3) = 0 ∧ win0_1.index t (2 : Fin 3) = 0
    ∧ win0_0.index t (0 : Fin 3) = (grid0.coords t 0).val
    ∧ win0_0.index t (1 : Fin 3) = 0 ∧ win0_0.index t (2 : Fin 3) = 0 :=
  (by decide +kernel : ∀ t : Fin grid0.N, _)

/-- What point `t` writes back is block `t` of `idxArr` of the array window 0 stages. -/
theorem flushed_eq (c : Dev nD) (t : Fin cfg0.N) :
    (dats m 0 c).flushed 1 t = ((cfg0.win 1).blk t).view.read (Elt F) (Cert.Unpool.idxArr (V m c main_v0)) := by
  show (cfg0.win 1).cut (grid0.coords t) ((dats m 0 c).after 1 t) = _
  rw [after0_1]
  unfold out0_1
  rw [View.canon_unit_zero hz]
  simp only [View.ld_unit_zero (S := S1x4096x128) hz]
  funext j
  refine (pay_apply (grid0.coords t) (iblk m c 0 t) j).trans ?_
  obtain ⟨e0, e1, e2, f0, f1, f2⟩ := idx_facts t
  have hj0 : (j 0).val < 1 := (j 0).isLt
  have hemb : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 4096 + 1 * (j 1).val = win0_1.index t (1 : Fin 3) * 4096 + 1 * (j 1).val; omega
    | ⟨2, _⟩ => show win0_0.index t (2 : Fin 3) * 128 + 1 * (j 2).val = win0_1.index t (2 : Fin 3) * 128 + 1 * (j 2).val; omega
  have hb : ((((cfg0.win 1).blk t).view.emb j) 0).val = (grid0.coords t 0).val := by
    show win0_1.index t (0 : Fin 3) * 1 + 1 * (j 0).val = _; omega
  have hl : ((((cfg0.win 1).blk t).view.emb j) 2).val = (j 2).val := by
    show win0_1.index t (2 : Fin 3) * 128 + 1 * (j 2).val = _; omega
  show Cert.Unpool.kflat (grid0.coords t 0).val (V m c main_v0 (((cfg0.win 0).blk t).view.emb j)) (j 2).val
    = Cert.Unpool.kflat ((((cfg0.win 1).blk t).view.emb j) 0).val (V m c main_v0 (((cfg0.win 1).blk t).view.emb j)) ((((cfg0.win 1).blk t).view.emb j) 2).val
  rw [hemb, hb, hl]

/-- An index of the array is in point `t`'s block iff each coordinate is in the block's range on its axis. -/
theorem mem_blk (t : Fin cfg0.N) (i : S16x4096x128.Idx) :
    i ∈ ((cfg0.win 1).blk t).view.set ↔ ∀ a : Fin 3, win0_1.index t a * S1x4096x128.size a ≤ (i a).val
      ∧ (i a).val < win0_1.index t a * S1x4096x128.size a + S1x4096x128.size a := by
  show i ∈ ((View.whole main_v1).slice (win0_1.rect t)).set ↔ _
  rw [View.set_slice_whole, Rect.mem_set_unit]
  exact Iff.rfl

/-- Every batch is some point's block index. -/
theorem idx_onto : ∀ q : Fin 16, ∃ t : Fin cfg0.N, win0_1.index t = ![q.val, 0, 0] :=
  (by decide +kernel : ∀ q : Fin 16, ∃ t : Fin grid0.N, win0_1.index t = ![q.val, 0, 0])

/-- The sixteen blocks cover the index array: the index (b, r, l) is in the block of the point whose block index is b. -/
theorem cover (i : S16x4096x128.Idx) :
    ∃ t : Fin cfg0.N, (cfg0.win 1).flush t = true ∧ i ∈ ((cfg0.win 1).blk t).view.set := by
  have hi0 : (i 0).val < 16 := (i 0).isLt
  have hi1 : (i 1).val < 4096 := (i 1).isLt
  have hi2 : (i 2).val < 128 := (i 2).isLt
  obtain ⟨t, ht⟩ := idx_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 128 ≤ (i 2).val ∧ (i 2).val < win0_1.index t (2 : Fin 3) * 128 + 128; omega

/-- The index array after the region is `idxArr` of the reshaped mask. -/
theorem final (c : Dev nD) : (dats m 0 c).arrAt 1 cfg0.N
    = Cert.Unpool.idxArr (shapeCast S16x4096x128 (m ((c.tc : Thread nD τ).loc main_arg1)) Gen.shapeCasts_S16x64x64x128_S16x4096x128) := by
  rw [← V_main_v0 m c]
  exact (dats m 0 c).arrAt_eq_of_cover 1 (Cert.Unpool.idxArr (V m c main_v0)) (fun t _ => flushed_eq m c t) cover

end Cert.KernelIdeal.HandValue

end
-- ==== Proof.KernelValue.lean ====
/-
  The kernel program's value.

  After the region the index array (window 1's array) holds `Cert.Unpool.idxArr` of the reshaped mask. The seven host
  operations that follow flatten the first argument and the index array, broadcast a zero to 33554432 elements, add a unit
  index axis, do one accumulating scatter along the flat axis and reshape to [16, 128, 128, 128]: read off the frame run's
  post, the result buffer holds `Cert.Unpool.kerOut` of the two arguments, and neither argument is written.
-/
import proofs.«125867_j85839216377924_1_alg».proof.Proof.KernelValueBlocks

set_option maxRecDepth 16384

noncomputable section

namespace Cert.KernelIdeal.HandValue

open Idealize.ShloMosaic Idealize.ShloMosaic.TcCoe Idealize.SL.Sem Cert.KernelIdeal Idealize.ShloMosaic.ValueIdx
open Idealize.ShloMosaic.Pipeline (Dat)
open Cert.KernelIdeal.Gen Cert.KernelIdeal.GenP

variable {F : FTy → Type} [FloatOps F]
variable (m : (ℓ : Loc nD τ sig) → Buf (Elt F) ℓ) (ρ : Dev nD → PrngReg)

/-- The result buffer after the host operations that follow the region. -/
theorem tail_eq (c : Dev nD) :
    Pipeline.afterTail₀ cfgs (dats m) 0 (V0 m) [hostOps1] c main_v7
      = Cert.Unpool.kerOut (m ((c.tc : Thread nD τ).loc main_arg0)) (m ((c.tc : Thread nD τ).loc main_arg1)) := by
  unfold Pipeline.afterTail₀
  show StableHlo.after hostOps1 _ (Proc.devRef .tc main_v7) = _
  after_results
  have hI : Pipeline.withArrays (cfgs 0).spec c (V0 m c) (fun w => (dats m 0 c).arrAt w (cfgs 0).N) (Proc.tc.devRef main_v1)
      = Cert.Unpool.idxArr (shapeCast S16x4096x128 (m ((c.tc : Thread nD τ).loc main_arg1)) Gen.shapeCasts_S16x64x64x128_S16x4096x128) :=
    (Pipeline.withArrays_arr spec0 launch0.win.arr_inj c _ _ 1).trans (final m c)
  have hU : Pipeline.withArrays (cfgs 0).spec c (V0 m c) (fun w => (dats m 0 c).arrAt w (cfgs 0).N) (Proc.tc.devRef main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  rw [hI, hU]
  rfl

/-- The run of the kernel program: the result is `kerOut` of the two arguments, which are left as launched. -/
theorem run : θ_run (Cert.KernelIdeal.defs (F := F)) (onTc (τ := τ) (main (F := F))) ⟨m, fun _ => 0, ρ⟩ (fun r => ∀ c : Dev nD,
      r.2.mem ((c.tc : Thread nD τ).loc main_v7)
        = Cert.Unpool.kerOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- info: 'Cert.KernelIdeal.HandValue.run' depends on axioms: [propext, Classical.choice, Quot.sound] -/
#guard_msgs in #print axioms run

end Cert.KernelIdeal.HandValue

end
-- ==== Proof.RefRun.lean ====
/-
  The reference program's run, read back.

  The reference's @main calls three outlined helper functions (floor division twice, remainder once, each with a nested
  select helper). A call executes the callee's body on the operands, every value of the inlined body in a buffer of its
  own, so @main is one straight line of 100 host operations: the callee's operations listed at the call site over that
  call's buffer record. Every weakly fair execution of that line terminates with each buffer at the fold of the
  operations' results over the launch contents; read at the result buffer the fold is the composed pure term
  `Cert.Unpool.refOut` of the two arguments, and the two arguments are written by no operation.
-/
import proofs.«125867_j85839216377924_1_alg».proof.Proof.Spec
import proofs.«125867_j85839216377924_1_alg».proof.Proof.Gen.ReferenceIdeal
import Idealize.ShloMosaic.Lib.StableHlo.Run

noncomputable section

namespace Cert.ReferenceIdeal.HandRun

open Idealize.ShloMosaic Idealize.SL.Sem Cert.ReferenceIdeal Cert.ReferenceIdeal.Facts₀
open Idealize.ShloMosaic.TcCoe Idealize.ShloMosaic.StableHlo

variable {F : FTy → Type} [FloatOps F]

/-- @main's 100 operations in order, the calls unfolded: the constant 16384, floor division's seventeen operations and
    its select over the first call's buffers; the constant 128 and the same eighteen over the second call's; the
    constant 128, then remainder's twenty-one operations with its scalar select over the third call's; then @main's own
    forty-two (the two iotas and their broadcasts, the zero output, the four negative-index normalisations, the four
    broadcasts onto a last axis of one, their concatenation, the accumulating scatter). -/
abbrev ops : List (HloOp τ sig (Elt F)) :=
  [ StableHlo.nullary main_c (constantI S_ 32 16384#32),
    StableHlo.TRef.unary (.of main_c : StableHlo.TRef sig ⟨S_, .i32⟩) main_call0.v0 id,
    StableHlo.TRef.unary main_call0.v0 main_call0.v1 (broadcastInDim S16x64x64x128 ![] bcast_S_S16x64x64x128),
    StableHlo.TRef.binary (.of main_arg1 : StableHlo.TRef sig ⟨S16x64x64x128, .i32⟩) main_call0.v1 main_call0.v2 Host.divsi,
    StableHlo.TRef.unary (.of main_arg1 : StableHlo.TRef sig ⟨S16x64x64x128, .i32⟩) main_call0.v3 signi,
    StableHlo.TRef.unary main_call0.v0 main_call0.v4 signi,
    StableHlo.TRef.unary main_call0.v4 main_call0.v5 (broadcastInDim S16x64x64x128 ![] bcast_S_S16x64x64x128),
    StableHlo.TRef.binary main_call0.v3 main_call0.v5 main_call0.v6 (cmpi .ne),
    StableHlo.TRef.unary main_call0.v0 main_call0.v7 (broadcastInDim S16x64x64x128 ![] bcast_S_S16x64x64x128),
    StableHlo.TRef.binary (.of main_arg1 : StableHlo.TRef sig ⟨S16x64x64x128, .i32⟩) main_call0.v7 main_call0.v8 Host.remsi,
    StableHlo.TRef.nullary main_call0.c (constantI S_ 32 0#32),
    StableHlo.TRef.unary main_call0.c main_call0.v9 (broadcastInDim S16x64x64x128 ![] bcast_S_S16x64x64x128),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16x64x64x128 ![] bcast_S_S16x64x64x128),
    StableHlo.TRef.binary main_call0.v2 main_call0.v12 main_call0.v13 subi,
    StableHlo.TRef.ternary main_call0.v11 main_call0.v13 main_call0.v2 main_call0.call0.v0 select,
    StableHlo.nullary main_c_0 (constantI S_ 32 128#32),
    StableHlo.TRef.unary (.of main_c_0 : StableHlo.TRef sig ⟨S_, .i32⟩) main_call1.v0 id,
    StableHlo.TRef.unary main_call1.v0 main_call1.v1 (broadcastInDim S16x64x64x128 ![] bcast_S_S16x64x64x128),
    StableHlo.TRef.binary (.of main_arg1 : StableHlo.TRef sig ⟨S16x64x64x128, .i32⟩) main_call1.v1 main_call1.v2 Host.divsi,
    StableHlo.TRef.unary (.of main_arg1 : StableHlo.TRef sig ⟨S16x64x64x128, .i32⟩) main_call1.v3 signi,
    StableHlo.TRef.unary main_call1.v0 main_call1.v4 signi,
    StableHlo.TRef.unary main_call1.v4 main_call1.v5 (broadcastInDim S16x64x64x128 ![] bcast_S_S16x64x64x128),
    StableHlo.TRef.binary main_call1.v3 main_call1.v5 main_call1.v6 (cmpi .ne),
    StableHlo.TRef.unary main_call1.v0 main_call1.v7 (broadcastInDim S16x64x64x128 ![] bcast_S_S16x64x64x128),
    StableHlo.TRef.binary (.of main_arg1 : StableHlo.TRef sig ⟨S16x64x64x128, .i32⟩) main_call1.v7 main_call1.v8 Host.remsi,
    StableHlo.TRef.nullary main_call1.c (constantI S_ 32 0#32),
    StableHlo.TRef.unary main_call1.c main_call1.v9 (broadcastInDim S16x64x64x128 ![] bcast_S_S16x64x64x128),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16x64x64x128 ![] bcast_S_S16x64x64x128),
    StableHlo.TRef.binary main_call1.v2 main_call1.v12 main_call1.v13 subi,
    StableHlo.TRef.ternary main_call1.v11 main_call1.v13 main_call1.v2 main_call1.call0.v0 select,
    StableHlo.nullary main_c_1 (constantI S_ 32 128#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16x64x64x128 ![] bcast_S_S16x64x64x128),
    StableHlo.TRef.binary (.of main_v1 : StableHlo.TRef sig ⟨S16x64x64x128, .i32⟩) main_call2.v3 main_call2.v4 Host.remsi,
    StableHlo.TRef.nullary main_call2.c_1 (constantI S_ 32 0#32),
    StableHlo.TRef.unary main_call2.c_1 main_call2.v5 (broadcastInDim S16x64x64x128 ![] bcast_S_S16x64x64x128),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16x64x64x128 ![] bcast_S_S16x64x64x128),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16x64x64x128 ![] bcast_S_S16x64x64x128),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16x64x64x128 ![] bcast_S_S16x64x64x128),
    StableHlo.TRef.binary main_call2.v4 main_call2.v13 main_call2.v14 addi,
    StableHlo.TRef.ternary main_call2.v12 main_call2.v14 main_call2.v4 main_call2.v15 select,
    StableHlo.nullary main_v3 (iotaInDim S16 32 0),
    StableHlo.unary main_v3 main_v4 (broadcastInDim S16x1x1x1 ![0] bcast_S16_S16x1x1x1_0 : (⟨S16, .i32⟩ : BufTy).Contents (Elt F) → (⟨S16x1x1x1, .i32⟩ : BufTy).Contents (Elt F)),
    StableHlo.nullary main_v5 (iotaInDim S128 32 0),
    StableHlo.unary main_v5 main_v6 (broadcastInDim S1x1x1x128 ![3] bcast_S128_S1x1x1x128_3 : (⟨S128, .i32⟩ : BufTy).Contents (Elt F) → (⟨S1x1x1x128, .i32⟩ : BufTy).Contents (Elt F)),
    StableHlo.unary main_v4 main_v7 (broadcastInDim S16x64x64x128 ![0, 1, 2, 3] bcast_S16x1x1x1_S16x64x64x128_0_1_2_3 : (⟨S16x1x1x1, .i32⟩ : BufTy).Contents (Elt F) → (⟨S16x64x64x128, .i32⟩ : BufTy).Contents (Elt F)),
    StableHlo.unary main_v6 main_v8 (broadcastInDim S16x64x64x128 ![0, 1, 2, 3] bcast_S1x1x1x128_S16x64x64x128_0_1_2_3 : (⟨S1x1x1x128, .i32⟩ : BufTy).Contents (Elt F) → (⟨S16x64x64x128, .i32⟩ : BufTy).Contents (Elt F)),
    StableHlo.nullary main_cst (constant S_ .f32 0x00000000#32),
    StableHlo.unary main_cst main_v9 (broadcastInDim S16x128x128x128 ![] bcast_S_S16x128x128x128 : (⟨S_, .f32⟩ : BufTy).Contents (Elt F) → (⟨S16x128x128x128, .f32⟩ : BufTy).Contents (Elt F)),
    StableHlo.nullary main_c_2 (constantI S_ 32 0#32),
    StableHlo.unary main_c_2 main_v10 (broadcastInDim S16x64x64x128 ![] bcast_S_S16x64x64x128 : (⟨S_, .i32⟩ : BufTy).Contents (Elt F) → (⟨S16x64x64x128, .i32⟩ : BufTy).Contents (Elt F)),
    StableHlo.binary main_v7 main_v10 main_v11 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_3 (constantI S_ 32 16#32),
    StableHlo.unary main_c_3 main_v12 (broadcastInDim S16x64x64x128 ![] bcast_S_S16x64x64x128 : (⟨S_, .i32⟩ : BufTy).Contents (Elt F) → (⟨S16x64x64x128, .i32⟩ : BufTy).Contents (Elt F)),
    StableHlo.binary main_v7 main_v12 main_v13 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v11 main_v13 main_v7 main_v14 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.nullary main_c_4 (constantI S_ 32 0#32),
    StableHlo.unary main_c_4 main_v15 (broadcastInDim S16x64x64x128 ![] bcast_S_S16x64x64x128 : (⟨S_, .i32⟩ : BufTy).Contents (Elt F) → (⟨S16x64x64x128, .i32⟩ : BufTy).Contents (Elt F)),
    StableHlo.binary main_v0 main_v15 main_v16 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_5 (constantI S_ 32 128#32),
    StableHlo.unary main_c_5 main_v17 (broadcastInDim S16x64x64x128 ![] bcast_S_S16x64x64x128 : (⟨S_, .i32⟩ : BufTy).Contents (Elt F) → (⟨S16x64x64x128, .i32⟩ : BufTy).Contents (Elt F)),
    StableHlo.binary main_v0 main_v17 main_v18 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v16 main_v18 main_v0 main_v19 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.nullary main_c_6 (constantI S_ 32 0#32),
    StableHlo.unary main_c_6 main_v20 (broadcastInDim S16x64x64x128 ![] bcast_S_S16x64x64x128 : (⟨S_, .i32⟩ : BufTy).Contents (Elt F) → (⟨S16x64x64x128, .i32⟩ : BufTy).Contents (Elt F)),
    StableHlo.binary main_v2 main_v20 main_v21 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_7 (constantI S_ 32 128#32),
    StableHlo.unary main_c_7 main_v22 (broadcastInDim S16x64x64x128 ![] bcast_S_S16x64x64x128 : (⟨S_, .i32⟩ : BufTy).Contents (Elt F) → (⟨S16x64x64x128, .i32⟩ : BufTy).Contents (Elt F)),
    StableHlo.binary main_v2 main_v22 main_v23 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v21 main_v23 main_v2 main_v24 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.nullary main_c_8 (constantI S_ 32 0#32),
    StableHlo.unary main_c_8 main_v25 (broadcastInDim S16x64x64x128 ![] bcast_S_S16x64x64x128 : (⟨S_, .i32⟩ : BufTy).Contents (Elt F) → (⟨S16x64x64x128, .i32⟩ : BufTy).Contents (Elt F)),
    StableHlo.binary main_v8 main_v25 main_v26 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_9 (constantI S_ 32 128#32),
    StableHlo.unary main_c_9 main_v27 (broadcastInDim S16x64x64x128 ![] bcast_S_S16x64x64x128 : (⟨S_, .i32⟩ : BufTy).Contents (Elt F) → (⟨S16x64x64x128, .i32⟩ : BufTy).Contents (Elt F)),
    StableHlo.binary main_v8 main_v27 main_v28 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v26 main_v28 main_v8 main_v29 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.unary main_v14 main_v30 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.unary main_v19 main_v31 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.unary main_v24 main_v32 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.unary main_v29 main_v33 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.nary ![main_v30, main_v31, main_v32, main_v33] main_v34 (fun u => concatenate S16x64x64x128x4 4 [⟨S16x64x64x128x1, u 0⟩, ⟨S16x64x64x128x1, u 1⟩, ⟨S16x64x64x128x1, u 2⟩, ⟨S16x64x64x128x1, u 3⟩] concatenates_S16x64x64x128x1_S16x64x64x128x1_S16x64x64x128x1_S16x64x64x128x1_S16x64x64x128x4_d4),
    StableHlo.ternary main_v9 main_v34 main_arg0 main_v35 ((fun x i u => Host.scatterAdd scatter_S16x128x128x128_S16x64x64x128x4_S16x64x64x128_n_0123_0123_4 x i u) : (⟨S16x128x128x128, .f32⟩ : BufTy).Contents (Elt F) → (⟨S16x64x64x128x4, .i32⟩ : BufTy).Contents (Elt F) → (⟨S16x64x64x128, .f32⟩ : BufTy).Contents (Elt F) → (⟨S16x128x128x128, .f32⟩ : BufTy).Contents (Elt F)) ]

-- one hundred binds re-associated: the rewrite under the chain recurses once per statement
set_option maxRecDepth 8192 in
set_option maxHeartbeats 4000000 in
/-- @main is that straight line: the helper functions' definitions unfolded at their calls, both sides are one chain
    of host steps once sequencing is re-associated. -/
theorem main_eq (c : Dev nD) : main (F := F) c = seq ops := by
  simp only [main, fn_floor_divide.body, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., unary_bufs_sub .., unary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., unary_bufs_sub .., nary_bufs_sub .., ternary_bufs_sub ..⟩

/-- The four index components stacked on a last axis, from the two quotient-derived components `y` (the row) and
    `x` (the column): the batch and channel components are iotas broadcast over the source shape, and each of the
    four passes through the negative-index normalisation against its axis extent. -/
def tailIdx (y x : IVec Cert.ReferenceIdeal.S16x64x64x128 32) : IVec Cert.ReferenceIdeal.S16x64x64x128x4 32 :=
  let v3 : IVec S16 32 := iotaInDim S16 32 0
  let v4 : IVec S16x1x1x1 32 := broadcastInDim S16x1x1x1 ![0] bcast_S16_S16x1x1x1_0 v3
  let v5 : IVec S128 32 := iotaInDim S128 32 0
  let v6 : IVec S1x1x1x128 32 := broadcastInDim S1x1x1x128 ![3] bcast_S128_S1x1x1x128_3 v5
  let v7 : IVec S16x64x64x128 32 := broadcastInDim S16x64x64x128 ![0, 1, 2, 3] bcast_S16x1x1x1_S16x64x64x128_0_1_2_3 v4
  let v8 : IVec S16x64x64x128 32 := broadcastInDim S16x64x64x128 ![0, 1, 2, 3] bcast_S1x1x1x128_S16x64x64x128_0_1_2_3 v6
  let v14 := Cert.Unpool.normIdx v7 16#32
  let v19 := Cert.Unpool.normIdx y 128#32
  let v24 := Cert.Unpool.normIdx x 128#32
  let v29 := Cert.Unpool.normIdx v8 128#32
  let v30 := broadcastInDim S16x64x64x128x1 ![0, 1, 2, 3] bcast_S16x64x64x128_S16x64x64x128x1_0_1_2_3 v14
  let v31 := broadcastInDim S16x64x64x128x1 ![0, 1, 2, 3] bcast_S16x64x64x128_S16x64x64x128x1_0_1_2_3 v19
  let v32 := broadcastInDim S16x64x64x128x1 ![0, 1, 2, 3] bcast_S16x64x64x128_S16x64x64x128x1_0_1_2_3 v24
  let v33 := broadcastInDim S16x64x64x128x1 ![0, 1, 2, 3] bcast_S16x64x64x128_S16x64x64x128x1_0_1_2_3 v29
  concatenate S16x64x64x128x4 4
    [⟨S16x64x64x128x1, v30⟩, ⟨S16x64x64x128x1, v31⟩, ⟨S16x64x64x128x1, v32⟩, ⟨S16x64x64x128x1, v33⟩]
    concatenates_S16x64x64x128x1_S16x64x64x128x1_S16x64x64x128x1_S16x64x64x128x1_S16x64x64x128x4_d4

/-- The accumulating scatter of `upd` into zeros at the stacked indices. -/
def tailOut (upd : FVec F Cert.ReferenceIdeal.S16x64x64x128 .f32) (y x : IVec Cert.ReferenceIdeal.S16x64x64x128 32) :
    FVec F Cert.ReferenceIdeal.S16x128x128x128 .f32 :=
  Host.scatterAdd scatter_S16x128x128x128_S16x64x64x128x4_S16x64x64x128_n_0123_0123_4
    (broadcastInDim S16x128x128x128 ![] bcast_S_S16x128x128x128 (constant (F := F) S_ .f32 0x00000000#32))
    (tailIdx y x) upd

/-- The reference's composed term is the tail's, at the row `⌊m / 16384⌋` and the column `⌊m / 128⌋ mod 128`. -/
theorem refOut_eq_tailOut (upd : FVec F Cert.ReferenceIdeal.S16x64x64x128 .f32) (mk : IVec Cert.ReferenceIdeal.S16x64x64x128 32) :
    Cert.Unpool.refOut upd mk
      = tailOut upd (Cert.Unpool.floorDivide mk (constantI S_ 32 16384#32))
          (Cert.Unpool.remainderJ (Cert.Unpool.floorDivide mk (constantI S_ 32 128#32)) (constantI S_ 32 128#32)) := rfl

/-- The constant 16384 and the first floor division's eighteen operations. -/
abbrev opsA : List (HloOp τ sig (Elt F)) :=
  [ StableHlo.nullary main_c (constantI S_ 32 16384#32),
    StableHlo.TRef.unary (.of main_c : StableHlo.TRef sig ⟨S_, .i32⟩) main_call0.v0 id,
    StableHlo.TRef.unary main_call0.v0 main_call0.v1 (broadcastInDim S16x64x64x128 ![] bcast_S_S16x64x64x128),
    StableHlo.TRef.binary (.of main_arg1 : StableHlo.TRef sig ⟨S16x64x64x128, .i32⟩) main_call0.v1 main_call0.v2 Host.divsi,
    StableHlo.TRef.unary (.of main_arg1 : StableHlo.TRef sig ⟨S16x64x64x128, .i32⟩) main_call0.v3 signi,
    StableHlo.TRef.unary main_call0.v0 main_call0.v4 signi,
    StableHlo.TRef.unary main_call0.v4 main_call0.v5 (broadcastInDim S16x64x64x128 ![] bcast_S_S16x64x64x128),
    StableHlo.TRef.binary main_call0.v3 main_call0.v5 main_call0.v6 (cmpi .ne),
    StableHlo.TRef.unary main_call0.v0 main_call0.v7 (broadcastInDim S16x64x64x128 ![] bcast_S_S16x64x64x128),
    StableHlo.TRef.binary (.of main_arg1 : StableHlo.TRef sig ⟨S16x64x64x128, .i32⟩) main_call0.v7 main_call0.v8 Host.remsi,
    StableHlo.TRef.nullary main_call0.c (constantI S_ 32 0#32),
    StableHlo.TRef.unary main_call0.c main_call0.v9 (broadcastInDim S16x64x64x128 ![] bcast_S_S16x64x64x128),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16x64x64x128 ![] bcast_S_S16x64x64x128),
    StableHlo.TRef.binary main_call0.v2 main_call0.v12 main_call0.v13 subi,
    StableHlo.TRef.ternary main_call0.v11 main_call0.v13 main_call0.v2 main_call0.call0.v0 select ]

set_option maxRecDepth 8192 in
set_option maxHeartbeats 4000000 in
theorem A_v0 (W : Valuation τ sig (Elt F)) :
    after opsA W (main_v0 : DevRef τ sig) = Cert.Unpool.floorDivide (W (main_arg1 : DevRef τ sig)) (constantI S_ 32 16384#32) := by
  after_results_simp <;> rfl

set_option maxRecDepth 8192 in
set_option maxHeartbeats 2000000 in
theorem A_arg0 (W : Valuation τ sig (Elt F)) :
    after opsA W (main_arg0 : DevRef τ sig) = W (main_arg0 : DevRef τ sig) := by
  after_results_simp

set_option maxRecDepth 8192 in
set_option maxHeartbeats 2000000 in
theorem A_arg1 (W : Valuation τ sig (Elt F)) :
    after opsA W (main_arg1 : DevRef τ sig) = W (main_arg1 : DevRef τ sig) := by
  after_results_simp

/-- The constant 128 and the second floor division's eighteen operations. -/
abbrev opsB : List (HloOp τ sig (Elt F)) :=
  [ StableHlo.nullary main_c_0 (constantI S_ 32 128#32),
    StableHlo.TRef.unary (.of main_c_0 : StableHlo.TRef sig ⟨S_, .i32⟩) main_call1.v0 id,
    StableHlo.TRef.unary main_call1.v0 main_call1.v1 (broadcastInDim S16x64x64x128 ![] bcast_S_S16x64x64x128),
    StableHlo.TRef.binary (.of main_arg1 : StableHlo.TRef sig ⟨S16x64x64x128, .i32⟩) main_call1.v1 main_call1.v2 Host.divsi,
    StableHlo.TRef.unary (.of main_arg1 : StableHlo.TRef sig ⟨S16x64x64x128, .i32⟩) main_call1.v3 signi,
    StableHlo.TRef.unary main_call1.v0 main_call1.v4 signi,
    StableHlo.TRef.unary main_call1.v4 main_call1.v5 (broadcastInDim S16x64x64x128 ![] bcast_S_S16x64x64x128),
    StableHlo.TRef.binary main_call1.v3 main_call1.v5 main_call1.v6 (cmpi .ne),
    StableHlo.TRef.unary main_call1.v0 main_call1.v7 (broadcastInDim S16x64x64x128 ![] bcast_S_S16x64x64x128),
    StableHlo.TRef.binary (.of main_arg1 : StableHlo.TRef sig ⟨S16x64x64x128, .i32⟩) main_call1.v7 main_call1.v8 Host.remsi,
    StableHlo.TRef.nullary main_call1.c (constantI S_ 32 0#32),
    StableHlo.TRef.unary main_call1.c main_call1.v9 (broadcastInDim S16x64x64x128 ![] bcast_S_S16x64x64x128),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16x64x64x128 ![] bcast_S_S16x64x64x128),
    StableHlo.TRef.binary main_call1.v2 main_call1.v12 main_call1.v13 subi,
    StableHlo.TRef.ternary main_call1.v11 main_call1.v13 main_call1.v2 main_call1.call0.v0 select ]

set_option maxRecDepth 8192 in
set_option maxHeartbeats 4000000 in
theorem B_v1 (W : Valuation τ sig (Elt F)) :
    after opsB W (main_v1 : DevRef τ sig) = Cert.Unpool.floorDivide (W (main_arg1 : DevRef τ sig)) (constantI S_ 32 128#32) := by
  after_results_simp <;> rfl

set_option maxRecDepth 8192 in
set_option maxHeartbeats 2000000 in
theorem B_arg0 (W : Valuation τ sig (Elt F)) :
    after opsB W (main_arg0 : DevRef τ sig) = W (main_arg0 : DevRef τ sig) := by
  after_results_simp

set_option maxRecDepth 8192 in
set_option maxHeartbeats 2000000 in
theorem B_arg1 (W : Valuation τ sig (Elt F)) :
    after opsB W (main_arg1 : DevRef τ sig) = W (main_arg1 : DevRef τ sig) := by
  after_results_simp

set_option maxRecDepth 8192 in
set_option maxHeartbeats 2000000 in
theorem B_v0 (W : Valuation τ sig (Elt F)) :
    after opsB W (main_v0 : DevRef τ sig) = W (main_v0 : DevRef τ sig) := by
  after_results_simp

/-- The constant 128 and the remainder's twenty-one operations (its scalar select among them). -/
abbrev opsC : List (HloOp τ sig (Elt F)) :=
  [ StableHlo.nullary main_c_1 (constantI S_ 32 128#32),
    StableHlo.TRef.unary (.of main_c_1 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16x64x64x128 ![] bcast_S_S16x64x64x128),
    StableHlo.TRef.binary (.of main_v1 : StableHlo.TRef sig ⟨S16x64x64x128, .i32⟩) main_call2.v3 main_call2.v4 Host.remsi,
    StableHlo.TRef.nullary main_call2.c_1 (constantI S_ 32 0#32),
    StableHlo.TRef.unary main_call2.c_1 main_call2.v5 (broadcastInDim S16x64x64x128 ![] bcast_S_S16x64x64x128),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16x64x64x128 ![] bcast_S_S16x64x64x128),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16x64x64x128 ![] bcast_S_S16x64x64x128),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16x64x64x128 ![] bcast_S_S16x64x64x128),
    StableHlo.TRef.binary main_call2.v4 main_call2.v13 main_call2.v14 addi,
    StableHlo.TRef.ternary main_call2.v12 main_call2.v14 main_call2.v4 main_call2.v15 select ]

set_option maxRecDepth 8192 in
set_option maxHeartbeats 4000000 in
theorem C_v2 (W : Valuation τ sig (Elt F)) :
    after opsC W (main_v2 : DevRef τ sig) = Cert.Unpool.remainderJ (W (main_v1 : DevRef τ sig)) (constantI S_ 32 128#32) := by
  after_results_simp <;> rfl

set_option maxRecDepth 8192 in
set_option maxHeartbeats 2000000 in
theorem C_arg0 (W : Valuation τ sig (Elt F)) :
    after opsC W (main_arg0 : DevRef τ sig) = W (main_arg0 : DevRef τ sig) := by
  after_results_simp

set_option maxRecDepth 8192 in
set_option maxHeartbeats 2000000 in
theorem C_arg1 (W : Valuation τ sig (Elt F)) :
    after opsC W (main_arg1 : DevRef τ sig) = W (main_arg1 : DevRef τ sig) := by
  after_results_simp

set_option maxRecDepth 8192 in
set_option maxHeartbeats 2000000 in
theorem C_v0 (W : Valuation τ sig (Elt F)) :
    after opsC W (main_v0 : DevRef τ sig) = W (main_v0 : DevRef τ sig) := by
  after_results_simp

/-- @main's own forty-two operations after the three calls. -/
abbrev opsD : List (HloOp τ sig (Elt F)) :=
  [ StableHlo.nullary main_v3 (iotaInDim S16 32 0),
    StableHlo.unary main_v3 main_v4 (broadcastInDim S16x1x1x1 ![0] bcast_S16_S16x1x1x1_0 : (⟨S16, .i32⟩ : BufTy).Contents (Elt F) → (⟨S16x1x1x1, .i32⟩ : BufTy).Contents (Elt F)),
    StableHlo.nullary main_v5 (iotaInDim S128 32 0),
    StableHlo.unary main_v5 main_v6 (broadcastInDim S1x1x1x128 ![3] bcast_S128_S1x1x1x128_3 : (⟨S128, .i32⟩ : BufTy).Contents (Elt F) → (⟨S1x1x1x128, .i32⟩ : BufTy).Contents (Elt F)),
    StableHlo.unary main_v4 main_v7 (broadcastInDim S16x64x64x128 ![0, 1, 2, 3] bcast_S16x1x1x1_S16x64x64x128_0_1_2_3 : (⟨S16x1x1x1, .i32⟩ : BufTy).Contents (Elt F) → (⟨S16x64x64x128, .i32⟩ : BufTy).Contents (Elt F)),
    StableHlo.unary main_v6 main_v8 (broadcastInDim S16x64x64x128 ![0, 1, 2, 3] bcast_S1x1x1x128_S16x64x64x128_0_1_2_3 : (⟨S1x1x1x128, .i32⟩ : BufTy).Contents (Elt F) → (⟨S16x64x64x128, .i32⟩ : BufTy).Contents (Elt F)),
    StableHlo.nullary main_cst (constant S_ .f32 0x00000000#32),
    StableHlo.unary main_cst main_v9 (broadcastInDim S16x128x128x128 ![] bcast_S_S16x128x128x128 : (⟨S_, .f32⟩ : BufTy).Contents (Elt F) → (⟨S16x128x128x128, .f32⟩ : BufTy).Contents (Elt F)),
    StableHlo.nullary main_c_2 (constantI S_ 32 0#32),
    StableHlo.unary main_c_2 main_v10 (broadcastInDim S16x64x64x128 ![] bcast_S_S16x64x64x128 : (⟨S_, .i32⟩ : BufTy).Contents (Elt F) → (⟨S16x64x64x128, .i32⟩ : BufTy).Contents (Elt F)),
    StableHlo.binary main_v7 main_v10 main_v11 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_3 (constantI S_ 32 16#32),
    StableHlo.unary main_c_3 main_v12 (broadcastInDim S16x64x64x128 ![] bcast_S_S16x64x64x128 : (⟨S_, .i32⟩ : BufTy).Contents (Elt F) → (⟨S16x64x64x128, .i32⟩ : BufTy).Contents (Elt F)),
    StableHlo.binary main_v7 main_v12 main_v13 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v11 main_v13 main_v7 main_v14 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.nullary main_c_4 (constantI S_ 32 0#32),
    StableHlo.unary main_c_4 main_v15 (broadcastInDim S16x64x64x128 ![] bcast_S_S16x64x64x128 : (⟨S_, .i32⟩ : BufTy).Contents (Elt F) → (⟨S16x64x64x128, .i32⟩ : BufTy).Contents (Elt F)),
    StableHlo.binary main_v0 main_v15 main_v16 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_5 (constantI S_ 32 128#32),
    StableHlo.unary main_c_5 main_v17 (broadcastInDim S16x64x64x128 ![] bcast_S_S16x64x64x128 : (⟨S_, .i32⟩ : BufTy).Contents (Elt F) → (⟨S16x64x64x128, .i32⟩ : BufTy).Contents (Elt F)),
    StableHlo.binary main_v0 main_v17 main_v18 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v16 main_v18 main_v0 main_v19 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.nullary main_c_6 (constantI S_ 32 0#32),
    StableHlo.unary main_c_6 main_v20 (broadcastInDim S16x64x64x128 ![] bcast_S_S16x64x64x128 : (⟨S_, .i32⟩ : BufTy).Contents (Elt F) → (⟨S16x64x64x128, .i32⟩ : BufTy).Contents (Elt F)),
    StableHlo.binary main_v2 main_v20 main_v21 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_7 (constantI S_ 32 128#32),
    StableHlo.unary main_c_7 main_v22 (broadcastInDim S16x64x64x128 ![] bcast_S_S16x64x64x128 : (⟨S_, .i32⟩ : BufTy).Contents (Elt F) → (⟨S16x64x64x128, .i32⟩ : BufTy).Contents (Elt F)),
    StableHlo.binary main_v2 main_v22 main_v23 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v21 main_v23 main_v2 main_v24 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.nullary main_c_8 (constantI S_ 32 0#32),
    StableHlo.unary main_c_8 main_v25 (broadcastInDim S16x64x64x128 ![] bcast_S_S16x64x64x128 : (⟨S_, .i32⟩ : BufTy).Contents (Elt F) → (⟨S16x64x64x128, .i32⟩ : BufTy).Contents (Elt F)),
    StableHlo.binary main_v8 main_v25 main_v26 (cmpi .slt : (⟨S16x64x64x128, .i32⟩ : BufTy).Contents (Elt F) → (⟨S16x64x64x128, .i32⟩ : BufTy).Contents (Elt F) → (⟨S16x64x64x128, .i1⟩ : BufTy).Contents (Elt F)),
    StableHlo.nullary main_c_9 (constantI S_ 32 128#32),
    StableHlo.unary main_c_9 main_v27 (broadcastInDim S16x64x64x128 ![] bcast_S_S16x64x64x128 : (⟨S_, .i32⟩ : BufTy).Contents (Elt F) → (⟨S16x64x64x128, .i32⟩ : BufTy).Contents (Elt F)),
    StableHlo.binary main_v8 main_v27 main_v28 (addi : (⟨S16x64x64x128, .i32⟩ : BufTy).Contents (Elt F) → (⟨S16x64x64x128, .i32⟩ : BufTy).Contents (Elt F) → (⟨S16x64x64x128, .i32⟩ : BufTy).Contents (Elt F)),
    StableHlo.ternary main_v26 main_v28 main_v8 main_v29 (select : (⟨S16x64x64x128, .i1⟩ : BufTy).Contents (Elt F) → (⟨S16x64x64x128, .i32⟩ : BufTy).Contents (Elt F) → (⟨S16x64x64x128, .i32⟩ : BufTy).Contents (Elt F) → (⟨S16x64x64x128, .i32⟩ : BufTy).Contents (Elt F)),
    StableHlo.unary main_v14 main_v30 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.unary main_v19 main_v31 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.unary main_v24 main_v32 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.unary main_v29 main_v33 (broadcastInDim S16x64x64x128x1 ![0, 1, 2, 3] bcast_S16x64x64x128_S16x64x64x128x1_0_1_2_3 : (⟨S16x64x64x128, .i32⟩ : BufTy).Contents (Elt F) → (⟨S16x64x64x128x1, .i32⟩ : BufTy).Contents (Elt F)),
    StableHlo.nary ![main_v30, main_v31, main_v32, main_v33] main_v34 (fun u => concatenate S16x64x64x128x4 4 [⟨S16x64x64x128x1, u 0⟩, ⟨S16x64x64x128x1, u 1⟩, ⟨S16x64x64x128x1, u 2⟩, ⟨S16x64x64x128x1, u 3⟩] concatenates_S16x64x64x128x1_S16x64x64x128x1_S16x64x64x128x1_S16x64x64x128x1_S16x64x64x128x4_d4),
    StableHlo.ternary main_v9 main_v34 main_arg0 main_v35 ((fun x i u => Host.scatterAdd scatter_S16x128x128x128_S16x64x64x128x4_S16x64x64x128_n_0123_0123_4 x i u) : (⟨S16x128x128x128, .f32⟩ : BufTy).Contents (Elt F) → (⟨S16x64x64x128x4, .i32⟩ : BufTy).Contents (Elt F) → (⟨S16x64x64x128, .f32⟩ : BufTy).Contents (Elt F) → (⟨S16x128x128x128, .f32⟩ : BufTy).Contents (Elt F)) ]

set_option maxRecDepth 8192 in
set_option maxHeartbeats 4000000 in
theorem D_out (W : Valuation τ sig (Elt F)) :
    after opsD W (main_v35 : DevRef τ sig) = tailOut (F := F) (W (main_arg0 : DevRef τ sig)) (W (main_v0 : DevRef τ sig)) (W (main_v2 : DevRef τ sig)) := by
  after_results_simp <;> rfl

set_option maxRecDepth 8192 in
set_option maxHeartbeats 2000000 in
theorem D_arg0 (W : Valuation τ sig (Elt F)) :
    after opsD W (main_arg0 : DevRef τ sig) = W (main_arg0 : DevRef τ sig) := by
  after_results_simp

set_option maxRecDepth 8192 in
set_option maxHeartbeats 2000000 in
theorem D_arg1 (W : Valuation τ sig (Elt F)) :
    after opsD W (main_arg1 : DevRef τ sig) = W (main_arg1 : DevRef τ sig) := by
  after_results_simp

/-- The fold over a concatenation is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- The line is its four stretches in order. -/
theorem ops_split : (ops : List (HloOp τ sig (Elt F))) = opsA ++ (opsB ++ (opsC ++ opsD)) := rfl

/-- The fold read at the result buffer is the reference's composed term of the two arguments: the tail's term at what
    the three calls leave in their result buffers, each call's result its function of what it reads, and no stretch
    writing a buffer a later one reads other than those. -/
theorem out_eq (V : Valuation τ sig (Elt F)) :
    after ops V (main_v35 : DevRef τ sig)
      = Cert.Unpool.refOut (F := F) (V (main_arg0 : DevRef τ sig)) (V (main_arg1 : DevRef τ sig)) := by
  rw [ops_split, after_append, after_append, after_append, D_out, C_arg0, B_arg0, A_arg0, C_v0, B_v0, A_v0, C_v2, B_v1,
    A_arg1, refOut_eq_tailOut]

/-- No operation writes the first argument. -/
theorem arg0_eq (V : Valuation τ sig (Elt F)) :
    after ops V (main_arg0 : DevRef τ sig) = V (main_arg0 : DevRef τ sig) := by
  rw [ops_split, after_append, after_append, after_append, D_arg0, C_arg0, B_arg0, A_arg0]

/-- No operation writes the second argument. -/
theorem arg1_eq (V : Valuation τ sig (Elt F)) :
    after ops V (main_arg1 : DevRef τ sig) = V (main_arg1 : DevRef τ sig) := by
  rw [ops_split, after_append, after_append, after_append, D_arg1, C_arg1, B_arg1, A_arg1]

set_option maxRecDepth 8192 in
set_option maxHeartbeats 4000000 in
/-- On every device, for any float values, from any memory with zero counters: every weakly fair execution of @main
    terminates with the result buffer at `refOut` of the arguments' launch contents and the arguments unchanged. -/
theorem run_gen (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v35) = Cert.Unpool.refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v35).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

/-- The same at the ideal float values. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v35) = Cert.Unpool.refOut (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_gen m ρ

end Cert.ReferenceIdeal.HandRun

end
-- ==== Proof.LibScatterWords.lean ====
/-
  General lemmas for integer index arithmetic feeding an accumulating scatter, read at the exact instance.

  * 32-bit words that are known non-negative: the signed quotient and remainder by a positive word are the unsigned ones
    (`divsi_pos`, `remsi_pos`), the signed comparisons against zero (`cmpi_slt_zero`, `cmpi_sgt_zero`), and the signed
    value is the unsigned one (`toInt_of_msb_false`).
  * jnp's integer helpers one word at a time — floor division `fdivW`, remainder `remW`, and numpy's negative-index
    normalisation `normW` — and that on a non-negative dividend (and a positive divisor) they are the plain quotient, the
    plain remainder, and the identity (`fdivW_eq`, `remW_128`, `normW_eq`).
  * Where an update of a scatter lands: `d.resultIdx? j idx = some i` exactly when start + window is `i`'s coordinate on
    every operand axis (`resultIdx?_eq_some_iff`), for any dimension numbers.
  * The accumulating scatter at the exact instance, at an element: the operand's element plus the sum of the updates landing
    on it (`hostScatterAdd_eq`), and `Host.scatterAdd` at the exact instance as that function (`scatterAdd_ideal`). Use these two
    by `rw`, and never let a definitional check (`rfl`, `show`, `exact`, `simp`) unfold the scatter on a large index type: the
    normal form of a sum of extended reals over a finite type enumerates the type.
-/
import Idealize.ShloMosaic.PureOps
import Idealize.ShloMosaic.PureOps.Ideal
import Idealize.ShloMosaic.Lib.ValueIdx
noncomputable section
namespace Cert.Lib.Scatter
open Idealize.ShloMosaic

/-! ## Non-negative 32-bit words -/

theorem msb_false_of_lt {x : BitVec 32} {n : Nat} (h : x.toNat < n) (hn : n ≤ 2147483648) : x.msb = false := by
  rw [BitVec.msb_eq_false_iff_two_mul_lt]; omega

theorem toInt_of_msb_false {x : BitVec 32} (h : x.msb = false) : x.toInt = (x.toNat : Int) := by
  rw [BitVec.toInt_eq_msb_cond, h]; simp

theorem not_corner (x k : BitVec 32) (h0 : k ≠ 0) (h1 : k ≠ -1) : ¬ IntOp.SDivCorner x k := by
  rintro (h | ⟨_, h⟩)
  · exact h0 h
  · exact h1 h

theorem divsi_pos (u : ArithUnit) (x k : BitVec 32) (hx : x.msb = false) (hk : k.msb = false) (h0 : k ≠ 0) (h1 : k ≠ -1) :
    IntOp.divsi u x k = x / k := by
  unfold IntOp.divsi
  rw [if_neg (not_corner x k h0 h1), BitVec.sdiv_eq, hx, hk]
  rfl

theorem remsi_pos (u : ArithUnit) (x k : BitVec 32) (hx : x.msb = false) (hk : k.msb = false) (h0 : k ≠ 0) (h1 : k ≠ -1) :
    IntOp.remsi u x k = x % k := by
  unfold IntOp.remsi
  rw [if_neg (not_corner x k h0 h1), BitVec.srem_eq, hx, hk]

theorem cmpi_slt_zero (x : BitVec 32) (hx : x.msb = false) : IntOp.cmpi .slt x 0#32 = 0#1 := by
  unfold IntOp.cmpi
  simp only [BitVec.slt, toInt_of_msb_false hx]
  have h : ¬ ((x.toNat : Int) < 0) := by omega
  simp [h]

theorem cmpi_sgt_zero (x : BitVec 32) (hx : x.msb = false) (h0 : x ≠ 0) : IntOp.cmpi .sgt x 0#32 = 1#1 := by
  unfold IntOp.cmpi
  simp only [BitVec.slt, toInt_of_msb_false hx]
  have : 0 < x.toNat := by
    rcases Nat.eq_zero_or_pos x.toNat with h | h
    · exact absurd (BitVec.eq_of_toNat_eq (by simpa using h)) h0
    · exact h
  simp [this]

theorem andi_zero_left (y : BitVec 1) : IntOp.andi 0#1 y = 0#1 := by unfold IntOp.andi; simp

theorem toNat_ofNat_small (n : Nat) (hn : n < 2147483648) : (BitVec.ofNat 32 n).toNat = n := by
  rw [BitVec.toNat_ofNat]; exact Nat.mod_eq_of_lt (by omega)

/-- A word that is signed-at-least 0 and signed-below 2097152 is below 2097152 unsigned. -/
theorem toNat_lt_of_sge_slt (x : BitVec 32) (h1 : IntOp.cmpi .sge x 0#32 = 1#1) (h2 : IntOp.cmpi .slt x 2097152#32 = 1#1) :
    x.toNat < 2097152 := by
  unfold IntOp.cmpi at h1 h2
  simp only [BitVec.sle, BitVec.slt] at h1 h2
  have e0 : (0#32).toInt = 0 := by decide
  have e1 : (2097152#32).toInt = 2097152 := by decide
  rw [e0] at h1
  rw [e1] at h2
  have g1 : (0 : Int) ≤ x.toInt := by
    by_contra hc
    rw [decide_eq_false hc] at h1
    exact absurd h1 (by decide)
  have g2 : x.toInt < 2097152 := by
    by_contra hc
    rw [decide_eq_false hc] at h2
    exact absurd h2 (by decide)
  have := BitVec.toInt_eq_toNat_cond x
  split at this <;> omega

/-! ## jnp's integer helpers, one word at a time -/

/-- jnp's floor division, one word by one word. -/
def fdivW (x k : BitVec 32) : BitVec 32 :=
  let v2 := IntOp.divsi .host x k
  let v3 : BitVec 32 := if x = 0 then 0 else if x.msb then -1 else 1
  let v4 : BitVec 32 := if k = 0 then 0 else if k.msb then -1 else 1
  let v6 := IntOp.cmpi .ne v3 v4
  let v8 := IntOp.remsi .host x k
  let v10 := IntOp.cmpi .ne v8 0#32
  let v11 := IntOp.andi v6 v10
  let v13 := IntOp.subi v2 1#32
  Scalar.select v11 v13 v2

/-- jnp's remainder, one word by one word. -/
def remW (x k : BitVec 32) : BitVec 32 :=
  let v1 := IntOp.cmpi .eq k 0#32
  let v2 := Scalar.select v1 1#32 k
  let v4 := IntOp.remsi .host x v2
  let v6 := IntOp.cmpi .ne v4 0#32
  let v8 := IntOp.cmpi .slt v4 0#32
  let v9 := IntOp.cmpi .slt v2 0#32
  let v11 := IntOp.cmpi .ne v8 v9
  let v12 := IntOp.andi v11 v6
  let v14 := IntOp.addi v4 v2
  Scalar.select v12 v14 v4

/-- numpy's negative-index normalisation, one word. -/
def normW (v n : BitVec 32) : BitVec 32 := Scalar.select (IntOp.cmpi .slt v 0#32) (IntOp.addi v n) v

theorem fdivW_eq (x k : BitVec 32) (hx : x.msb = false) (hk : k.msb = false) (h0 : k ≠ 0) (h1 : k ≠ -1) :
    fdivW x k = x / k := by
  unfold fdivW
  simp only [divsi_pos .host x k hx hk h0 h1, remsi_pos .host x k hx hk h0 h1, hx, hk, if_neg h0]
  by_cases hx0 : x = 0
  · subst hx0
    have hz : ((0 : BitVec 32) % k) = 0 := by simp
    have e : IntOp.andi (IntOp.cmpi CmpIPredicate.ne (0 : BitVec 32) 1) (IntOp.cmpi CmpIPredicate.ne (0 : BitVec 32) 0#32) = 0#1 := by decide
    simp only [hz, eq_self_iff_true, if_true, Bool.false_eq_true, if_false, e, ValueIdx.select_zero]
  · simp only [if_neg hx0]
    have e : IntOp.cmpi CmpIPredicate.ne (1 : BitVec 32) (1 : BitVec 32) = 0#1 := by decide
    simp only [Bool.false_eq_true, if_false, e, andi_zero_left, ValueIdx.select_zero]

theorem normW_eq (v n : BitVec 32) (hv : v.msb = false) : normW v n = v := by
  unfold normW
  rw [cmpi_slt_zero v hv, ValueIdx.select_zero]

theorem remW_128 (x : BitVec 32) (hx : x.msb = false) : remW x 128#32 = x % 128#32 := by
  unfold remW
  have e1 : IntOp.cmpi CmpIPredicate.eq 128#32 0#32 = 0#1 := by decide
  simp only [e1, ValueIdx.select_zero, remsi_pos .host x 128#32 hx (by decide) (by decide) (by decide)]
  have hm : (x % 128#32).msb = false := by
    apply msb_false_of_lt (n := 128) _ (by decide)
    rw [BitVec.toNat_umod]; exact Nat.mod_lt _ (by decide)
  have e2 : IntOp.cmpi CmpIPredicate.slt 128#32 0#32 = 0#1 := by decide
  have e3 : IntOp.cmpi CmpIPredicate.ne 0#1 0#1 = 0#1 := by decide
  rw [cmpi_slt_zero _ hm, e2, e3, andi_zero_left, ValueIdx.select_zero]

/-! ## Where an update lands, and the exact accumulating scatter -/

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have := Option.some.inj h
      intro a
      have h2 := congrFun this a
      have := hb a
      have h3 := congrArg Fin.val h2
      simp only at h3
      omega
    · cases h
  · intro h
    have hb : ∀ a, 0 ≤ d.start j idx a + d.window j a ∧ d.start j idx a + d.window j a < s.size a := by
      intro a; rw [h a]; have := (i a).isLt; omega
    rw [dif_pos hb]
    congr 1
    funext a
    apply Fin.ext
    simp only
    rw [h a]; simp

/-- An accumulating scatter at an element: the operand's element plus the sum of the updates landing on it. -/
theorem hostScatterAdd_eq {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- At the exact instance the host's accumulating scatter is the exact one (as functions of the index). -/
theorem scatterAdd_ideal {s si su : Shape} {φ : FTy} (d : ScatterDims s si su) {w : Nat} (x : FVec Ideal s φ) (idx : IVec si w)
    (upd : FVec Ideal su φ) : Host.scatterAdd (F := Ideal) d x idx upd = Ideal.hostScatterAdd d x idx upd := rfl

end Cert.Lib.Scatter
-- ==== Proof.Words.lean ====
/-
  The integer words of both programs on a mask word in [0, 2097152): the kernel's corrected signed division is the
  plain quotient by 128 and its flat index `b · 2097152 + ⌊m / 128⌋ · 128 + c` does not wrap; jnp's floor division and
  remainder are the plain quotient and remainder, and numpy's negative-index normalisation leaves a non-negative word alone.
-/
import proofs.«125867_j85839216377924_1_alg».proof.Proof.LibScatterWords
import proofs.«125867_j85839216377924_1_alg».proof.Proof.Spec
import Idealize.ShloMosaic.Lib.ValueIdx
noncomputable section
namespace Cert.Unpool
open Cert.Lib.Scatter
open Idealize.ShloMosaic

/-- the kernel's floor division by 128 on a non-negative word -/
theorem kq_eq (x : BitVec 32) (hx : x.toNat < 2097152) : kq x = x / 128#32 := by
  have hm := msb_false_of_lt hx (by decide)
  unfold kq
  simp only [divsi_pos .vector x 128#32 hm (by decide) (by decide) (by decide), remsi_pos .vector x 128#32 hm (by decide) (by decide) (by decide)]
  by_cases h0 : x = 0
  · subst h0; decide
  · rw [cmpi_slt_zero x hm, cmpi_sgt_zero x hm h0]
    have e1 : IntOp.cmpi CmpIPredicate.ne (IntOp.subi (BitVec.setWidth 32 1#1) (BitVec.setWidth 32 0#1))
          (Scalar.subi (Scalar.extui (Scalar.cmpi CmpIPredicate.sgt 128#32 0#32))
            (Scalar.extui (Scalar.cmpi CmpIPredicate.slt 128#32 0#32))) = 0#1 := by decide
    rw [e1]
    have e2 : ∀ y : BitVec 1, IntOp.andi 0#1 y = 0#1 := fun y => by unfold IntOp.andi; simp
    rw [e2, ValueIdx.select_zero]

theorem kflat_toNat (b : Nat) (x : BitVec 32) (c : Nat) (hb : b < 16) (hx : x.toNat < 2097152) (hc : c < 128) :
    (kflat b x c).toNat = b * 2097152 + (x.toNat / 128) * 128 + c := by
  show (BitVec.ofNat 32 b * 2097152#32 + kq x * 128#32 + BitVec.ofNat 32 c).toNat = _
  rw [kq_eq x hx]
  rw [BitVec.toNat_add, BitVec.toNat_add, BitVec.toNat_mul, BitVec.toNat_mul, BitVec.toNat_udiv]
  simp only [BitVec.toNat_ofNat]
  have p : (2 : Nat) ^ 32 = 4294967296 := by norm_num
  rw [p]
  have h4 : 128 % 4294967296 = 128 := by norm_num
  have h1 : b % 4294967296 = b := Nat.mod_eq_of_lt (by omega)
  have h2 : 2097152 % 4294967296 = 2097152 := by norm_num
  have h3 : c % 4294967296 = c := Nat.mod_eq_of_lt (by omega)
  rw [h1, h2, h3, h4]
  have q := Nat.div_mul_le_self x.toNat 128
  rw [Nat.mod_eq_of_lt (by omega : b * 2097152 < 4294967296), Nat.mod_eq_of_lt (by omega : x.toNat / 128 * 128 < 4294967296),
    Nat.mod_eq_of_lt (by omega : b * 2097152 + x.toNat / 128 * 128 < 4294967296), Nat.mod_eq_of_lt (by omega)]

theorem kflat_toInt (b : Nat) (x : BitVec 32) (c : Nat) (hb : b < 16) (hx : x.toNat < 2097152) (hc : c < 128) :
    (kflat b x c).toInt = ((b * 2097152 + (x.toNat / 128) * 128 + c : Nat) : Int) := by
  have h := kflat_toNat b x c hb hx hc
  have q := Nat.div_mul_le_self x.toNat 128
  have hm : (kflat b x c).msb = false := msb_false_of_lt (n := 2147483648) (by rw [h]; omega) (le_refl _)
  rw [toInt_of_msb_false hm, h]
end Cert.Unpool
-- ==== Proof.Scatter.lean ====
/-
  Where an update lands. For an accumulating scatter whose every operand axis is an inserted (scattered) axis, update
  element j lands on operand element i exactly when, on every operand axis a, the index word read for (j, a), as a signed
  integer, is i's coordinate on a. Stated first for any dimension numbers (start + window = coordinate on every axis), then
  with start and window computed for the two scatters of this certificate: the flat one (one index component per update,
  read at [j, 0]) and the four-dimensional one (four components per update, read at [j, a]); both have no window axes.
-/
import proofs.«125867_j85839216377924_1_alg».proof.Proof.LibScatterWords
import proofs.«125867_j85839216377924_1_alg».proof.Proof.Spec
import Idealize.ShloMosaic.Lib.ValueIdx
import Idealize.ShloMosaic.Lib.Pipeline.Value
noncomputable section
namespace Cert.Unpool
open Cert.Lib.Scatter
open Idealize.ShloMosaic Idealize.ShloMosaic.ValueIdx

section K
open Cert.KernelIdeal Cert.KernelIdeal.Facts₀
variable [Cert.KernelIdeal.Facts]

theorem d1_window (j : S8388608.Idx) (a : Fin 1) : scatter_S33554432_S8388608x1_S8388608_n_0_0_1.window j a = 0 := by
  match a with
  | ⟨0, _⟩ => rfl

theorem d1_start {w : Nat} (j : S8388608.Idx) (idx : IVec S8388608x1 w) (a : Fin 1) :
    scatter_S33554432_S8388608x1_S8388608_n_0_0_1.start j idx a = (idx (ix2 (j 0) 0)).toInt := by
  match a with
  | ⟨0, _⟩ =>
    have ha : (⟨0, by decide⟩ : Fin S33554432.rank) ∈ scatter_S33554432_S8388608x1_S8388608_n_0_0_1.scatterDimsToOperandDims := List.mem_singleton.2 rfl
    unfold ScatterDims.start
    refine (dif_pos ha).trans ?_
    refine congrArg (fun k => (idx k).toInt) ?_
    funext b
    match b with
    | ⟨0, _⟩ => rfl
    | ⟨1, _⟩ => rfl
end K

section R
open Cert.ReferenceIdeal Cert.ReferenceIdeal.Facts₀
variable [Cert.ReferenceIdeal.Facts]

theorem d4_window (j : S16x64x64x128.Idx) (a : Fin 4) :
    scatter_S16x128x128x128_S16x64x64x128x4_S16x64x64x128_n_0123_0123_4.window j a = 0 := by
  match a with
  | ⟨0, _⟩ => rfl
  | ⟨1, _⟩ => rfl
  | ⟨2, _⟩ => rfl
  | ⟨3, _⟩ => rfl

theorem d4_start {w : Nat} (b : Fin 16) (h v : Fin 64) (c : Fin 128) (idx : IVec S16x64x64x128x4 w) (a : Fin 4) :
    scatter_S16x128x128x128_S16x64x64x128x4_S16x64x64x128_n_0123_0123_4.start (ix4 b h v c) idx a = (idx (ix5 b h v c a)).toInt := by
  have key : ∀ (a : Fin 4) (ha : a ∈ scatter_S16x128x128x128_S16x64x64x128x4_S16x64x64x128_n_0123_0123_4.scatterDimsToOperandDims),
      scatter_S16x128x128x128_S16x64x64x128x4_S16x64x64x128_n_0123_0123_4.siIdx (ix4 b h v c)
        ⟨List.idxOf a scatter_S16x128x128x128_S16x64x64x128x4_S16x64x64x128_n_0123_0123_4.scatterDimsToOperandDims, List.idxOf_lt_length_iff.2 ha⟩
        = ix5 b h v c a := by
    intro a ha
    funext e
    match a, e with
    | ⟨0, _⟩, ⟨0, _⟩ => rfl
    | ⟨0, _⟩, ⟨1, _⟩ => rfl
    | ⟨0, _⟩, ⟨2, _⟩ => rfl
    | ⟨0, _⟩, ⟨3, _⟩ => rfl
    | ⟨0, _⟩, ⟨4, _⟩ => rfl
    | ⟨1, _⟩, ⟨0, _⟩ => rfl
    | ⟨1, _⟩, ⟨1, _⟩ => rfl
    | ⟨1, _⟩, ⟨2, _⟩ => rfl
    | ⟨1, _⟩, ⟨3, _⟩ => rfl
    | ⟨1, _⟩, ⟨4, _⟩ => rfl
    | ⟨2, _⟩, ⟨0, _⟩ => rfl
    | ⟨2, _⟩, ⟨1, _⟩ => rfl
    | ⟨2, _⟩, ⟨2, _⟩ => rfl
    | ⟨2, _⟩, ⟨3, _⟩ => rfl
    | ⟨2, _⟩, ⟨4, _⟩ => rfl
    | ⟨3, _⟩, ⟨0, _⟩ => rfl
    | ⟨3, _⟩, ⟨1, _⟩ => rfl
    | ⟨3, _⟩, ⟨2, _⟩ => rfl
    | ⟨3, _⟩, ⟨3, _⟩ => rfl
    | ⟨3, _⟩, ⟨4, _⟩ => rfl
  have ha : a ∈ scatter_S16x128x128x128_S16x64x64x128x4_S16x64x64x128_n_0123_0123_4.scatterDimsToOperandDims := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
    | ⟨3, _⟩ => exact List.mem_cons_of_mem _ (List.mem_cons_of_mem _ (List.mem_cons_of_mem _ List.mem_cons_self))
  unfold ScatterDims.start
  refine (dif_pos ha).trans ?_
  exact congrArg (fun k => (idx k).toInt) (key a ha)
end R
end Cert.Unpool
-- ==== Proof.KerIdx.lean ====
/-
  The kernel side, element by element. The source element (b, h, w, c) sits at position n = ((b·64 + h)·64 + w)·128 + c of
  the flattened updates; the index word the flat scatter reads for it is the kernel's flat index of that element, so (for a
  mask word m in [0, 2097152)) it lands on flat output position b · 2097152 + ⌊m / 128⌋ · 128 + c and nowhere else.
-/
import proofs.«125867_j85839216377924_1_alg».proof.Proof.Spec
import proofs.«125867_j85839216377924_1_alg».proof.Proof.Words
import proofs.«125867_j85839216377924_1_alg».proof.Proof.Scatter
import Idealize.ShloMosaic.Lib.ValueIdx
import Idealize.ShloMosaic.Lib.Pipeline.Value
noncomputable section
namespace Cert.Unpool
open Cert.Lib.Scatter
open Idealize.ShloMosaic Idealize.ShloMosaic.ValueIdx

section K
open Cert.KernelIdeal Cert.KernelIdeal.Facts₀
variable [Cert.KernelIdeal.Facts]

/-- The flat scatter's index operand: the kernel's index array, flattened, with the index-vector axis of extent one added. -/
def kerI (mk : IVec S16x64x64x128 32) : IVec S8388608x1 32 :=
  broadcastInDim S8388608x1 ![0] bcast_S8388608_S8388608x1_0
    (shapeCast S8388608 (idxArr (shapeCast S16x4096x128 mk shapeCasts_S16x64x64x128_S16x4096x128)) shapeCasts_S16x4096x128_S8388608)

/-- The flat scatter's index word for the source element (b, h, w, c), whose position in the flattened updates is
    n = ((b·64 + h)·64 + w)·128 + c: the kernel's flat index of that element. -/
theorem kerI_apply (mk : IVec S16x64x64x128 32) (b : Fin 16) (h v : Fin 64) (c : Fin 128) (n : Fin 8388608)
    (hn : n.val = ((b.val * 64 + h.val) * 64 + v.val) * 128 + c.val) :
    kerI mk (ix2 n (0 : Fin 1)) = kflat b.val (mk (ix4 b h v c)) c.val := by
  unfold kerI
  have hr : h.val * 64 + v.val < 4096 := by have := h.isLt; have := v.isLt; omega
  refine (broadcastInDim_apply _ _ _ (ix2 n (0 : Fin 1)) (ix1 n) ?_).trans ?_
  · intro a
    match a with
    | ⟨0, _⟩ => rfl
  refine (shapeCast_apply _ _ (ix1 n) (ix3 b (⟨h.val * 64 + v.val, hr⟩ : Fin 4096) c) ?_).trans ?_
  · rw [Shape.rowMajor_val_three, Shape.rowMajor_val_one]
    show (b.val * 4096 + (h.val * 64 + v.val)) * 128 + c.val = n.val
    omega
  show kflat b.val (shapeCast S16x4096x128 mk shapeCasts_S16x64x64x128_S16x4096x128 (ix3 b (⟨h.val * 64 + v.val, hr⟩ : Fin 4096) c)) c.val = _
  refine congrArg (fun x => kflat b.val x c.val) ?_
  refine shapeCast_apply _ _ _ (ix4 b h v c) ?_
  rw [Shape.rowMajor_val_three, Shape.rowMajor_val_four]
  show ((b.val * 64 + h.val) * 64 + v.val) * 128 + c.val = (b.val * 4096 + (h.val * 64 + v.val)) * 128 + c.val
  omega

/-- The source element (b, h, w, c) lands on flat output position k exactly when k = b · 2097152 + ⌊m / 128⌋ · 128 + c. -/
theorem kerP_iff (mk : IVec S16x64x64x128 32) (b : Fin 16) (h v : Fin 64) (c : Fin 128) (n : Fin 8388608)
    (hn : n.val = ((b.val * 64 + h.val) * 64 + v.val) * 128 + c.val) (hm : (mk (ix4 b h v c)).toNat < 2097152)
    (k : S33554432.Idx) :
    scatter_S33554432_S8388608x1_S8388608_n_0_0_1.resultIdx? (ix1 n) (kerI mk) = some k ↔ b.val * 2097152 + (mk (ix4 b h v c)).toNat / 128 * 128 + c.val = (k 0).val := by
  rw [resultIdx?_eq_some_iff]
  have key : ∀ a : Fin 1, scatter_S33554432_S8388608x1_S8388608_n_0_0_1.start (ix1 n) (kerI mk) a
      + ((scatter_S33554432_S8388608x1_S8388608_n_0_0_1.window (ix1 n) a : Nat) : Int)
      = ((b.val * 2097152 + (mk (ix4 b h v c)).toNat / 128 * 128 + c.val : Nat) : Int) := by
    intro a
    rw [d1_window, d1_start]
    show (kerI mk (ix2 n (0 : Fin 1))).toInt + ((0 : Nat) : Int) = _
    rw [kerI_apply mk b h v c n hn, kflat_toInt b.val _ c.val b.isLt hm c.isLt]
    simp
  constructor
  · intro H
    have := H 0
    rw [key 0] at this
    exact_mod_cast this
  · intro H a
    rw [key a]
    match a with
    | ⟨0, _⟩ => exact_mod_cast H

end K
end Cert.Unpool
-- ==== Proof.RefIdx.lean ====
/-
  The reference side, element by element. The stacked index array at (source element, component a) is, for a = 0 … 3, the
  batch coordinate, ⌊m / 16384⌋, ⌊m / 128⌋ mod 128 and the channel coordinate of that element (m its mask word), each
  passed through the negative-index normalisation; for m in [0, 2097152) these are the plain numbers, so the element lands
  on the output element with exactly those four coordinates and nowhere else.
-/
import proofs.«125867_j85839216377924_1_alg».proof.Proof.Spec
import proofs.«125867_j85839216377924_1_alg».proof.Proof.Words
import proofs.«125867_j85839216377924_1_alg».proof.Proof.Scatter
import Idealize.ShloMosaic.Lib.ValueIdx
import Idealize.ShloMosaic.Lib.Pipeline.Value
noncomputable section
namespace Cert.Unpool
open Cert.Lib.Scatter
open Idealize.ShloMosaic Idealize.ShloMosaic.ValueIdx

section Reference
open Cert.ReferenceIdeal Cert.ReferenceIdeal.Facts₀
variable [Cert.ReferenceIdeal.Facts]

theorem floorDivide_apply (x : IVec S16x64x64x128 32) (k : BitVec 32) (j : S16x64x64x128.Idx) :
    floorDivide x (constantI S_ 32 k) j = fdivW (x j) k := rfl

theorem remainderJ_apply (x : IVec S16x64x64x128 32) (k : BitVec 32) (j : S16x64x64x128.Idx) :
    remainderJ x (constantI S_ 32 k) j = remW (x j) k := rfl

theorem normIdx_apply (x : IVec S16x64x64x128 32) (n : BitVec 32) (j : S16x64x64x128.Idx) :
    normIdx x n j = normW (x j) n := rfl

/-- the four components at a source element -/
def comp (mk : IVec S16x64x64x128 32) (b : Fin 16) (h w : Fin 64) (c : Fin 128) : Fin 4 → BitVec 32
  | ⟨0, _⟩ => normW (BitVec.ofNat 32 b.val) 16#32
  | ⟨1, _⟩ => normW (fdivW (mk (ix4 b h w c)) 16384#32) 128#32
  | ⟨2, _⟩ => normW (remW (fdivW (mk (ix4 b h w c)) 128#32) 128#32) 128#32
  | ⟨3, _⟩ => normW (BitVec.ofNat 32 c.val) 128#32

theorem concat4_apply (v0 v1 v2 v3 : S16x64x64x128x1.Idx → BitVec 32)
    (hc : Shape.Concatenates (([⟨S16x64x64x128x1, v0⟩, ⟨S16x64x64x128x1, v1⟩, ⟨S16x64x64x128x1, v2⟩, ⟨S16x64x64x128x1, v3⟩] :
      List ((s : Shape) × (s.Idx → BitVec 32))).map (·.1)) S16x64x64x128x4 4)
    (b : Fin 16) (h w : Fin 64) (c : Fin 128) (a : Fin 4) :
    concatenate S16x64x64x128x4 4 [⟨S16x64x64x128x1, v0⟩, ⟨S16x64x64x128x1, v1⟩, ⟨S16x64x64x128x1, v2⟩, ⟨S16x64x64x128x1, v3⟩] hc (ix5 b h w c a)
      = (match a with | ⟨0, _⟩ => v0 | ⟨1, _⟩ => v1 | ⟨2, _⟩ => v2 | ⟨3, _⟩ => v3) (ix5 b h w c (0 : Fin 1)) := by
  have hi : ∀ (a : Fin 4) (b' : Fin S16x64x64x128x1.rank), b'.cast (rfl : S16x64x64x128x1.rank = S16x64x64x128x4.rank) ≠ (4 : Fin 5) →
      ((ix5 b h w c (0 : Fin 1)) b').val = ((ix5 b h w c a) (b'.cast rfl)).val := by
    intro a b' hb'
    match b' with
    | ⟨0, _⟩ => rfl
    | ⟨1, _⟩ => rfl
    | ⟨2, _⟩ => rfl
    | ⟨3, _⟩ => rfl
    | ⟨4, _⟩ => exact absurd rfl hb'
  match a with
  | ⟨0, _⟩ =>
    exact concatenate_apply_piece (t := S16x64x64x128x4) 4 _ hc (ix5 b h w c _) 0 (by simp) S16x64x64x128x1 v0 rfl rfl 0 rfl
      (ix5 b h w c (0 : Fin 1)) (hi _) rfl
  | ⟨1, _⟩ =>
    exact concatenate_apply_piece (t := S16x64x64x128x4) 4 _ hc (ix5 b h w c _) 1 (by simp) S16x64x64x128x1 v1 rfl rfl 1 rfl
      (ix5 b h w c (0 : Fin 1)) (hi _) rfl
  | ⟨2, _⟩ =>
    exact concatenate_apply_piece (t := S16x64x64x128x4) 4 _ hc (ix5 b h w c _) 2 (by simp) S16x64x64x128x1 v2 rfl rfl 2 rfl
      (ix5 b h w c (0 : Fin 1)) (hi _) rfl
  | ⟨3, _⟩ =>
    exact concatenate_apply_piece (t := S16x64x64x128x4) 4 _ hc (ix5 b h w c _) 3 (by simp) S16x64x64x128x1 v3 rfl rfl 3 rfl
      (ix5 b h w c (0 : Fin 1)) (hi _) rfl

/-- a component array read through the added last unit axis -/
theorem bcastUnit_apply (v : IVec S16x64x64x128 32) (b : Fin 16) (h w : Fin 64) (c : Fin 128) :
    broadcastInDim S16x64x64x128x1 ![0, 1, 2, 3] bcast_S16x64x64x128_S16x64x64x128x1_0_1_2_3 v (ix5 b h w c (0 : Fin 1)) = v (ix4 b h w c) :=
  broadcastInDim_apply _ _ _ _ (ix4 b h w c) (fun a => match a with
    | ⟨0, _⟩ => rfl | ⟨1, _⟩ => rfl | ⟨2, _⟩ => rfl | ⟨3, _⟩ => rfl)

/-- the batch iota, broadcast over the source shape, at a source element is the batch coordinate -/
theorem batchIota_apply (b : Fin 16) (h w : Fin 64) (c : Fin 128) :
    broadcastInDim S16x64x64x128 ![0, 1, 2, 3] bcast_S16x1x1x1_S16x64x64x128_0_1_2_3
      (broadcastInDim S16x1x1x1 ![0] bcast_S16_S16x1x1x1_0 (iotaInDim S16 32 0)) (ix4 b h w c) = BitVec.ofNat 32 b.val := by
  refine (broadcastInDim_apply _ _ _ _ (ix4 b (0 : Fin 1) (0 : Fin 1) (0 : Fin 1)) (fun a => match a with
    | ⟨0, _⟩ => rfl | ⟨1, _⟩ => rfl | ⟨2, _⟩ => rfl | ⟨3, _⟩ => rfl)).trans ?_
  refine (broadcastInDim_apply _ _ _ _ (ix1 b) (fun a => match a with | ⟨0, _⟩ => rfl)).trans ?_
  rfl

/-- the channel iota, broadcast over the source shape, at a source element is the channel coordinate -/
theorem chanIota_apply (b : Fin 16) (h w : Fin 64) (c : Fin 128) :
    broadcastInDim S16x64x64x128 ![0, 1, 2, 3] bcast_S1x1x1x128_S16x64x64x128_0_1_2_3
      (broadcastInDim S1x1x1x128 ![3] bcast_S128_S1x1x1x128_3 (iotaInDim S128 32 0)) (ix4 b h w c) = BitVec.ofNat 32 c.val := by
  refine (broadcastInDim_apply _ _ _ _ (ix4 (0 : Fin 1) (0 : Fin 1) (0 : Fin 1) c) (fun a => match a with
    | ⟨0, _⟩ => rfl | ⟨1, _⟩ => rfl | ⟨2, _⟩ => rfl | ⟨3, _⟩ => rfl)).trans ?_
  refine (broadcastInDim_apply _ _ _ _ (ix1 c) (fun a => match a with | ⟨0, _⟩ => rfl)).trans ?_
  rfl

theorem refIdx_apply (mk : IVec S16x64x64x128 32) (b : Fin 16) (h w : Fin 64) (c : Fin 128) (a : Fin 4) :
    refIdx mk (ix5 b h w c a) = comp mk b h w c a := by
  unfold refIdx
  dsimp only
  rw [concat4_apply]
  match a with
  | ⟨0, _⟩ =>
    dsimp only
    rw [bcastUnit_apply, normIdx_apply, batchIota_apply]; rfl
  | ⟨1, _⟩ =>
    dsimp only
    rw [bcastUnit_apply, normIdx_apply, floorDivide_apply]; rfl
  | ⟨2, _⟩ =>
    dsimp only
    rw [bcastUnit_apply, normIdx_apply, remainderJ_apply, floorDivide_apply]; rfl
  | ⟨3, _⟩ =>
    dsimp only
    rw [bcastUnit_apply, normIdx_apply, chanIota_apply]; rfl

/-- The four components as integers, for a mask word below 2097152. -/
theorem comp_toInt (mk : IVec S16x64x64x128 32) (b : Fin 16) (h w : Fin 64) (c : Fin 128)
    (hm : (mk (ix4 b h w c)).toNat < 2097152) (a : Fin 4) :
    (comp mk b h w c a).toInt = (((match a with
      | ⟨0, _⟩ => b.val
      | ⟨1, _⟩ => (mk (ix4 b h w c)).toNat / 16384
      | ⟨2, _⟩ => (mk (ix4 b h w c)).toNat / 128 % 128
      | ⟨3, _⟩ => c.val) : Nat) : Int) := by
  have hx : (mk (ix4 b h w c)).msb = false := msb_false_of_lt hm (by decide)
  match a with
  | ⟨0, _⟩ =>
    have e := toNat_ofNat_small b.val (by have := b.isLt; omega)
    have hmsb : (BitVec.ofNat 32 b.val).msb = false := msb_false_of_lt (n := 16) (by rw [e]; exact b.isLt) (by decide)
    show (normW (BitVec.ofNat 32 b.val) 16#32).toInt = _
    rw [normW_eq _ _ hmsb, toInt_of_msb_false hmsb, e]
  | ⟨1, _⟩ =>
    have e : (mk (ix4 b h w c) / 16384#32).toNat = (mk (ix4 b h w c)).toNat / 16384 := by rw [BitVec.toNat_udiv]; rfl
    have hmsb : (mk (ix4 b h w c) / 16384#32).msb = false :=
      msb_false_of_lt (n := 2097152) (by rw [e]; exact lt_of_le_of_lt (Nat.div_le_self _ _) hm) (by decide)
    show (normW (fdivW (mk (ix4 b h w c)) 16384#32) 128#32).toInt = _
    rw [fdivW_eq _ _ hx (by decide) (by decide) (by decide), normW_eq _ _ hmsb, toInt_of_msb_false hmsb, e]
  | ⟨2, _⟩ =>
    have e : (mk (ix4 b h w c) / 128#32).toNat = (mk (ix4 b h w c)).toNat / 128 := by rw [BitVec.toNat_udiv]; rfl
    have hmsb : (mk (ix4 b h w c) / 128#32).msb = false :=
      msb_false_of_lt (n := 2097152) (by rw [e]; exact lt_of_le_of_lt (Nat.div_le_self _ _) hm) (by decide)
    have e2 : (mk (ix4 b h w c) / 128#32 % 128#32).toNat = (mk (ix4 b h w c)).toNat / 128 % 128 := by rw [BitVec.toNat_umod, e]; rfl
    have hmsb2 : (mk (ix4 b h w c) / 128#32 % 128#32).msb = false :=
      msb_false_of_lt (n := 128) (by rw [e2]; exact Nat.mod_lt _ (by decide)) (by decide)
    show (normW (remW (fdivW (mk (ix4 b h w c)) 128#32) 128#32) 128#32).toInt = _
    rw [fdivW_eq _ _ hx (by decide) (by decide) (by decide), remW_128 _ hmsb, normW_eq _ _ hmsb2, toInt_of_msb_false hmsb2, e2]
  | ⟨3, _⟩ =>
    have e := toNat_ofNat_small c.val (by have := c.isLt; omega)
    have hmsb : (BitVec.ofNat 32 c.val).msb = false := msb_false_of_lt (n := 128) (by rw [e]; exact c.isLt) (by decide)
    show (normW (BitVec.ofNat 32 c.val) 128#32).toInt = _
    rw [normW_eq _ _ hmsb, toInt_of_msb_false hmsb, e]

/-- The source element (b, h, w, c) lands on output element i exactly when i = (b, ⌊m / 16384⌋, ⌊m / 128⌋ mod 128, c). -/
theorem refP_iff (mk : IVec S16x64x64x128 32) (b : Fin 16) (h w : Fin 64) (c : Fin 128)
    (hm : (mk (ix4 b h w c)).toNat < 2097152) (i : S16x128x128x128.Idx) :
    scatter_S16x128x128x128_S16x64x64x128x4_S16x64x64x128_n_0123_0123_4.resultIdx? (ix4 b h w c) (refIdx mk) = some i ↔
      (b.val = (i 0).val ∧ (mk (ix4 b h w c)).toNat / 16384 = (i 1).val ∧ (mk (ix4 b h w c)).toNat / 128 % 128 = (i 2).val
        ∧ c.val = (i 3).val) := by
  rw [resultIdx?_eq_some_iff]
  have key : ∀ a : Fin 4, scatter_S16x128x128x128_S16x64x64x128x4_S16x64x64x128_n_0123_0123_4.start (ix4 b h w c) (refIdx mk) a
      + ((scatter_S16x128x128x128_S16x64x64x128x4_S16x64x64x128_n_0123_0123_4.window (ix4 b h w c) a : Nat) : Int)
      = (((match a with
      | ⟨0, _⟩ => b.val
      | ⟨1, _⟩ => (mk (ix4 b h w c)).toNat / 16384
      | ⟨2, _⟩ => (mk (ix4 b h w c)).toNat / 128 % 128
      | ⟨3, _⟩ => c.val) : Nat) : Int) := by
    intro a
    rw [d4_window, d4_start, refIdx_apply, comp_toInt mk b h w c hm a]
    simp
  constructor
  · intro H
    have H0 := H 0; have H1 := H 1; have H2 := H 2; have H3 := H 3
    rw [key] at H0 H1 H2 H3
    exact ⟨by exact_mod_cast H0, by exact_mod_cast H1, by exact_mod_cast H2, by exact_mod_cast H3⟩
  · rintro ⟨H0, H1, H2, H3⟩ a
    rw [key a]
    match a with
    | ⟨0, _⟩ => exact_mod_cast H0
    | ⟨1, _⟩ => exact_mod_cast H1
    | ⟨2, _⟩ => exact_mod_cast H2
    | ⟨3, _⟩ => exact_mod_cast H3

end Reference
end Cert.Unpool
-- ==== Proof.Bridge.lean ====
/-
  The two results are one function. Both scatters start from zeros, so the value at an output element is the sum of the
  updates landing on it. Flattening the source shape row-major is a bijection between the two scatters' update indices, and
  (for mask words in [0, 2097152)) a source element lands on flat position ((i₀·128 + i₁)·128 + i₂)·128 + i₃ in the kernel's
  scatter exactly when it lands on (i₀, i₁, i₂, i₃) in the reference's: b · 2097152 + ⌊m / 128⌋ · 128 + c is the row-major
  position of (b, ⌊m / 16384⌋, ⌊m / 128⌋ mod 128, c). So the two sums range over corresponding sets and are equal.
-/
import proofs.«125867_j85839216377924_1_alg».proof.Proof.LibScatterWords
import proofs.«125867_j85839216377924_1_alg».proof.Proof.KerIdx
import proofs.«125867_j85839216377924_1_alg».proof.Proof.RefIdx
import Idealize.ShloMosaic.Lib.ValueIdx
import Idealize.ShloMosaic.Lib.Pipeline.Value
noncomputable section
namespace Cert.Unpool
open Cert.Lib.Scatter
open Idealize.ShloMosaic Idealize.ShloMosaic.ValueIdx
variable [Cert.KernelIdeal.Facts] [Cert.ReferenceIdeal.Facts]

/-- Two accumulating scatters of the same updates, re-indexed by a bijection under which the landing sets correspond, agree
    where their operands do. -/
theorem scatters_eq (upd : Cert.KernelIdeal.S16x64x64x128.Idx → EReal) (U1 : Cert.KernelIdeal.S8388608.Idx → EReal)
    (I1 : IVec Cert.KernelIdeal.S8388608x1 32) (R : IVec Cert.ReferenceIdeal.S16x64x64x128x4 32)
    (E : Cert.KernelIdeal.S8388608.Idx ≃ Cert.KernelIdeal.S16x64x64x128.Idx) (hU : ∀ j, U1 j = upd (E j))
    (k : Cert.KernelIdeal.S33554432.Idx) (i : Cert.KernelIdeal.S16x128x128x128.Idx)
    (hiff : ∀ j1 : Cert.KernelIdeal.S8388608.Idx, Cert.KernelIdeal.scatter_S33554432_S8388608x1_S8388608_n_0_0_1.resultIdx? j1 I1 = some k ↔ Cert.ReferenceIdeal.scatter_S16x128x128x128_S16x64x64x128x4_S16x64x64x128_n_0123_0123_4.resultIdx? (E j1) R = some i)
    (Z1 : Cert.KernelIdeal.S33554432.Idx → EReal) (Z4 : Cert.KernelIdeal.S16x128x128x128.Idx → EReal) (hz : Z1 k = Z4 i) :
    Ideal.hostScatterAdd Cert.KernelIdeal.scatter_S33554432_S8388608x1_S8388608_n_0_0_1 Z1 I1 U1 k
      = Ideal.hostScatterAdd Cert.ReferenceIdeal.scatter_S16x128x128x128_S16x64x64x128x4_S16x64x64x128_n_0123_0123_4 Z4 R upd i := by
  rw [hostScatterAdd_eq, hostScatterAdd_eq, hz]
  refine congrArg (fun s => Z4 i + s) ?_
  refine Finset.sum_equiv E (fun j => ?_) (fun j _ => hU j)
  rw [Finset.mem_filter, Finset.mem_filter]
  exact and_congr (by simp) (hiff j)

/-- Row-major positions agree: the landing conditions of the two scatters are equivalent, source element by source element. -/
theorem landing_iff (mk : IVec Cert.KernelIdeal.S16x64x64x128 32) (hdom : ∀ j, (mk j).toNat < 2097152)
    (E : Cert.KernelIdeal.S8388608.Idx ≃ Cert.KernelIdeal.S16x64x64x128.Idx) (hE : ∀ j1, (Cert.KernelIdeal.S16x64x64x128.rowMajor (E j1)).val = (j1 0).val)
    (k : Cert.KernelIdeal.S33554432.Idx) (i0 : Fin 16) (i1 i2 i3 : Fin 128) (hk : (k 0).val = ((i0.val * 128 + i1.val) * 128 + i2.val) * 128 + i3.val)
    (j1 : Cert.KernelIdeal.S8388608.Idx) :
    Cert.KernelIdeal.scatter_S33554432_S8388608x1_S8388608_n_0_0_1.resultIdx? j1 (kerI mk) = some k ↔ Cert.ReferenceIdeal.scatter_S16x128x128x128_S16x64x64x128x4_S16x64x64x128_n_0123_0123_4.resultIdx? (E j1) (refIdx mk) = some (ix4 i0 i1 i2 i3) := by
  obtain ⟨n, rfl⟩ : ∃ n : Fin 8388608, j1 = ix1 n := ⟨j1 0, eq_ix1 j1⟩
  obtain ⟨b, h, v, c, hj⟩ : ∃ (b : Fin 16) (h v : Fin 64) (c : Fin 128), E (ix1 n) = ix4 b h v c := ⟨_, _, _, _, eq_ix4 _⟩
  have hn : n.val = ((b.val * 64 + h.val) * 64 + v.val) * 128 + c.val := by
    have := hE (ix1 n)
    rw [hj, Shape.rowMajor_val_four] at this
    exact this.symm
  have hm := hdom (ix4 b h v c)
  rw [hj, refP_iff mk b h v c hm, kerP_iff mk b h v c n hn hm k, hk]
  have := b.isLt; have := c.isLt; have := i0.isLt; have := i1.isLt; have := i2.isLt; have := i3.isLt
  show _ ↔ (b.val = i0.val ∧ _ = i1.val ∧ _ = i2.val ∧ c.val = i3.val)
  generalize (mk (ix4 b h v c)).toNat = m at hm ⊢
  constructor
  · intro H; omega
  · rintro ⟨H0, H1, H2, H3⟩; omega

/-- The kernel program's result and the reference's are equal, for masks in [0, 2097152). -/
theorem bridge (upd : FVec Ideal Cert.KernelIdeal.S16x64x64x128 .f32) (mk : IVec Cert.KernelIdeal.S16x64x64x128 32)
    (hdom : ∀ j, (mk j).toNat < 2097152) :
    kerOut (F := Ideal) upd mk = refOut (F := Ideal) upd mk := by
  funext i
  obtain ⟨i0, i1, i2, i3, rfl⟩ : ∃ (i0 : Fin 16) (i1 i2 i3 : Fin 128), i = ix4 i0 i1 i2 i3 := ⟨_, _, _, _, eq_ix4 i⟩
  have hk : ((Shape.reshapeEquiv Cert.KernelIdeal.Facts₀.shapeCasts_S33554432_S16x128x128x128 (ix4 i0 i1 i2 i3)) 0).val
      = ((i0.val * 128 + i1.val) * 128 + i2.val) * 128 + i3.val := by
    have h := Shape.rowMajor_reshapeEquiv Cert.KernelIdeal.Facts₀.shapeCasts_S33554432_S16x128x128x128 (ix4 i0 i1 i2 i3)
    rw [Shape.rowMajor_val_one, Shape.rowMajor_val_four] at h
    exact h
  have hE : ∀ j1 : Cert.KernelIdeal.S8388608.Idx,
      (Cert.KernelIdeal.S16x64x64x128.rowMajor (Shape.reshapeEquiv Cert.KernelIdeal.Facts₀.shapeCasts_S16x64x64x128_S8388608 j1)).val = (j1 0).val := by
    intro j1
    have h := Shape.rowMajor_reshapeEquiv Cert.KernelIdeal.Facts₀.shapeCasts_S16x64x64x128_S8388608 j1
    rw [Shape.rowMajor_val_one] at h
    exact h
  unfold kerOut kerTail refOut
  unfold shapeCast
  rw [scatterAdd_ideal, scatterAdd_ideal]
  refine scatters_eq upd _ (kerI mk) (refIdx mk) (Shape.reshapeEquiv Cert.KernelIdeal.Facts₀.shapeCasts_S16x64x64x128_S8388608) (fun j => rfl) _ _
    (landing_iff mk hdom _ hE _ i0 i1 i2 i3 hk) _ _ ?_
  rfl

end Cert.Unpool
-- ==== Proof.PreDom.lean ====
/-
  The precondition, read element by element: the three `all` reductions of `finite_inputs` being true say, for the mask,
  that every word is at least 0 and below 2097152 as a signed integer, so its unsigned value is below 2097152.
-/
import proofs.«125867_j85839216377924_1_alg».proof.Proof.LibScatterWords
import proofs.«125867_j85839216377924_1_alg».proof.Pre_finite_inputs
import Idealize.ShloMosaic.PureOps.Ideal
import Idealize.ShloMosaic.Lib.ReduceAll
import Idealize.ShloMosaic.Lib.Affine
import Idealize.ShloMosaic.Lib.ValueIdx
noncomputable section
namespace Cert.Unpool
open Cert.Lib.Scatter
open Idealize.ShloMosaic Idealize.ShloMosaic.ValueIdx

instance : Subsingleton Cert.Pre_finite_inputs.S_.Idx := ⟨fun a b => funext fun d => d.elim0⟩

theorem dom_of_pre [Cert.Pre_finite_inputs.Facts] (a0 : FVec Ideal Cert.Pre_finite_inputs.S16x64x64x128 .f32)
    (a1 : IVec Cert.Pre_finite_inputs.S16x64x64x128 32)
    (h : Cert.Pre_finite_inputs.fn (F := Ideal) a0 a1 = fun _ => 1#1) (j : Cert.Pre_finite_inputs.S16x64x64x128.Idx) :
    (a1 j).toNat < 2097152 := by
  have h0 := congrFun h ix0
  dsimp only [Cert.Pre_finite_inputs.fn, andi] at h0
  obtain ⟨h12, h3⟩ := IntOp.andi_eq_one.1 h0
  obtain ⟨_, h2⟩ := IntOp.andi_eq_one.1 h12
  have hge := Host.reduce_andi_all _ _ _ _ ix0 h2 j
  have hlt := Host.reduce_andi_all _ _ _ _ ix0 h3 j
  exact toNat_lt_of_sge_slt (a1 j) hge hlt

end Cert.Unpool
-- ==== Proof.lean ====
/-
  Max-unpooling as a scatter: every element (b, h, w, c) of `updates` is added into the output at batch b, channel c and the
  position (y, x) its `mask` word m names, m being the row-major flat index of (y, x, c) in one batch's [128, 128, 128]
  output plane, 0 ≤ m < 2097152 (the precondition).

  The kernel program computes, in one pallas_call with one grid point per batch element, the flat index
  b · 2097152 + ⌊m / 128⌋ · 128 + c of every source element into the output read as one vector of 33554432 elements, and then
  does one accumulating scatter of the flattened updates along that flat axis, reshaped to [16, 128, 128, 128]. The reference
  computes the four coordinates (b, ⌊m / 16384⌋, ⌊m / 128⌋ mod 128, c) and does one accumulating scatter into the
  four-dimensional output. At the exact instance an accumulating scatter's value at an element is the sum of the updates
  landing on it, in any order; b · 2097152 + ⌊m / 128⌋ · 128 + c is the row-major position of (b, ⌊m / 16384⌋, ⌊m / 128⌋ mod 128, c),
  so a source element lands on an output element in one scatter exactly when it does in the other, and the sums agree.
  No arithmetic law of the extended reals beyond re-indexing a finite sum is used, so finiteness of `updates` is not needed;
  the mask's range is: outside it the two programs drop or wrap an update differently.

  The modules: Spec (both programs' results as pure terms), LibScatterWords (general lemmas on non-negative words, jnp's
  integer helpers and where a scatter's update lands), Words (the integer words on a mask word in range), Scatter
  (where an update lands), KerIdx / RefIdx (each side's landing condition per source element), Bridge (the two results are
  equal), PreDom (the mask's range from the precondition), KernelValue* (the kernel program's run ends at Spec's term),
  RefRun* (the reference's run ends at Spec's term), and the two frames.
-/
import proofs.«125867_j85839216377924_1_alg».proof.Defs
import proofs.«125867_j85839216377924_1_alg».proof.Proof.Gen.Kernel
import proofs.«125867_j85839216377924_1_alg».proof.Proof.Gen.KernelIdeal
import proofs.«125867_j85839216377924_1_alg».proof.Proof.Gen.ReferenceIdeal
import proofs.«125867_j85839216377924_1_alg».proof.Proof.Gen.Pre_finite_inputs
import proofs.«125867_j85839216377924_1_alg».proof.Proof.KernelFrameP
import proofs.«125867_j85839216377924_1_alg».proof.Proof.KernelIdealFrameP
import proofs.«125867_j85839216377924_1_alg».proof.Proof.KernelValue
import proofs.«125867_j85839216377924_1_alg».proof.Proof.RefRun
import proofs.«125867_j85839216377924_1_alg».proof.Proof.Bridge
import proofs.«125867_j85839216377924_1_alg».proof.Proof.PreDom
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.GenP.frame m ρ

/-- The idealized kernel program runs and leaves its arguments unchanged. -/
theorem frame_ki : Cert.frame_KernelIdeal := fun m ρ _ => Cert.KernelIdeal.GenP.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.HandRun.run m ρ)

/-- The idealization rewrote nothing. -/
theorem preserves : Cert.preserves_Kernel_KernelIdeal := trivial

/-- Both idealized programs end at the same array: the kernel program at the flat scatter of its index array, the
    reference at the four-dimensional scatter, equal for a mask in range. -/
theorem algebraic : Cert.algebraic_KernelIdeal_ReferenceIdeal := by
  intro m ρ m' ρ' hpre hagree
  refine ⟨fun c => Cert.Unpool.kerOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2]
  exact (Cert.Unpool.bridge _ _ (fun j => Cert.Unpool.dom_of_pre _ _ (hpre c) j)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
